-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S_ : Shape := ⟨0, ![]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel

variable [Facts]

def fn {F : FTy → Type} [FloatOps F] (main_arg0 : FVec F S64x2x512x512 .f32) (main_arg1 : FVec F S64x2x512x512 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  let main_v4 : FVec F S64x2x512x512 .f32 := Host.absf main_arg1
  let main_cst_0 : FVec F S_ .f32 := constant S_ .f32 0x7F800000#32
  let main_v5 : FVec F S64x2x512x512 .f32 := broadcastInDim S64x2x512x512 ![] bcast_S_S64x2x512x512 main_cst_0
  let main_v6 : IVec S64x2x512x512 1 := cmpf .olt main_v4 main_v5
  let main_c_1 : IVec S_ 1 := constantI S_ 1 1#1
  let main_v7 : IVec S_ 1 := (fun x v => Host.reduce IntOp.andi x v reducesTo_S64x2x512x512_S_d0_1_2_3 h_S_) main_v6 main_c_1
  let main_v8 : IVec S_ 1 := andi main_v3 main_v7
  main_v8
-- ==== Kernel.lean ====
abbrev S64x2x512x512 : Shape := ⟨4, ![64, 2, 512, 512]⟩
abbrev S2x8x128 : Shape := ⟨3, ![2, 8, 128]⟩
abbrev S1x2x512x512 : Shape := ⟨4, ![1, 2, 512, 512]⟩
abbrev S1x8x128 : Shape := ⟨3, ![1, 8, 128]⟩
abbrev S1x1 : Shape := ⟨2, ![1, 1]⟩
abbrev S1x1x512x512 : Shape := ⟨4, ![1, 1, 512, 512]⟩
abbrev S512x512 : Shape := ⟨2, ![512, 512]⟩
abbrev S510x510 : Shape := ⟨2, ![510, 510]⟩
abbrev S510 : Shape := ⟨1, ![510]⟩
abbrev S510x1 : Shape := ⟨2, ![510, 1]⟩
abbrev S1 : Shape := ⟨1, ![1]⟩
abbrev S512 : Shape := ⟨1, ![512]⟩
abbrev S512x1 : Shape := ⟨2, ![512, 1]⟩
abbrev S8x128 : Shape := ⟨2, ![8, 128]⟩
abbrev S1x1x1 : Shape := ⟨3, ![1, 1, 1]⟩
abbrev S_ : Shape := ⟨0, ![]⟩

abbrev nBuf : Space → Nat
  | .hbm => 32
  | .vmem => 9
  | .smem => 0
  | _ => 0

abbrev bufTy : (tb : Table) → Fin (tcTables nBuf tb) → BufTy
  | .hbm, ⟨0, _⟩ => ⟨S64x2x512x512, .f32⟩
  | .hbm, ⟨1, _⟩ => ⟨S64x2x512x512, .f32⟩
  | .hbm, ⟨2, _⟩ => ⟨S2x8x128, .f32⟩
  | .hbm, ⟨3, _⟩ => ⟨S1x1x1, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S_, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S_, .f32⟩
  | .hbm, ⟨13, _⟩ => ⟨S1x1x1, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x2x512x512, .f32⟩
  | .local _ .vmem, ⟨1, _⟩ => ⟨S1x2x512x512, .f32⟩
  | .local _ .vmem, ⟨2, _⟩ => ⟨S1x2x512x512, .f32⟩
  | .local _ .vmem, ⟨3, _⟩ => ⟨S1x2x512x512, .f32⟩
  | .local _ .vmem, ⟨4, _⟩ => ⟨S1x8x128, .f32⟩
  | .local _ .vmem, ⟨5, _⟩ => ⟨S1x8x128, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v184 : BitVec 1 := Scalar.cmpi .eq arg1 c31_i32
  let v185 : BitVec 32 := Scalar.extui v184
  let c0_i32_54 : BitVec 32 := 0#32
  let v186 : BitVec 1 := Scalar.cmpi .ne v185 c0_i32_54
  v186

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2x512x512_S1x1x512x512_0_0_0_0 : ∀ a, (![0, 0, 0, 0] : Fin 4 → Nat) a + S1x1x512x512.size a ≤ S1x2x512x512.size a
  h_S1x1x512x512 : 0 < S1x1x512x512.numel
  shapeCasts_S1x1x512x512_S512x512 : S1x1x512x512.ShapeCasts S512x512
  inb_S1x2x512x512_S1x1x512x512_0_1_0_0 : ∀ a, (![0, 1, 0, 0] : Fin 4 → Nat) a + S1x1x512x512.size a ≤ S1x2x512x512.size a
  slices_S512x512_o1_1_S510x510 : S512x512.Slices ![1, 1] S510x510
  slices_S512x512_o0_1_S510x510 : S512x512.Slices ![0, 1] S510x510
  slices_S512x512_o2_1_S510x510 : S512x512.Slices ![2, 1] S510x510
  slices_S512x512_o1_0_S510x510 : S512x512.Slices ![1, 0] S510x510
  slices_S512x512_o1_2_S510x510 : S512x512.Slices ![1, 2] S510x510
  reduces_S510x510_S510 : S510x510.Reduces [1] S510
  shapeCasts_S510_S510x1 : S510.ShapeCasts S510x1
  reduces_S510x1_S1 : S510x1.Reduces [0] S1
  shapeCasts_S1_S1x1 : S1.ShapeCasts S1x1
  reduces_S512x512_S512 : S512x512.Reduces [1] S512
  shapeCasts_S512_S512x1 : S512.ShapeCasts S512x1
  reduces_S512x1_S1 : S512x1.Reduces [0] S1
  iota_S8x128_d1_w32 : S8x128.Iotas .tc 32 [1]
  iota_S8x128_d0_w32 : S8x128.Iotas .tc 32 [0]
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S2x8x128_S1x1x1_0_0_0 : S2x8x128.Slices ![0, 0, 0] S1x1x1
  shapeCasts_S1x1x1_S_ : S1x1x1.ShapeCasts S_
  slices_S2x8x128_S1x1x1_1_0_0 : S2x8x128.Slices ![1, 0, 0] S1x1x1
  slices_S2x8x128_S1x1x1_0_0_1 : S2x8x128.Slices ![0, 0, 1] S1x1x1
  slices_S2x8x128_S1x1x1_1_0_1 : S2x8x128.Slices ![1, 0, 1] S1x1x1
  slices_S2x8x128_S1x1x1_0_0_2 : S2x8x128.Slices ![0, 0, 2] S1x1x1
  slices_S2x8x128_S1x1x1_1_0_2 : S2x8x128.Slices ![1, 0, 2] S1x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x512x512.size a ≤ S64x2x512x512.size a
  hwx0_0 : ∀ i : grid0.Coords, EltTy.bits .f32 = 32 ∨ (Rect.block (s := S64x2x512x512) S1x2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x512.size a ≤ S64x2x512x512.size a
  hwx0_1 : ∀ i : grid0.Coords, EltTy.bits .f32 = 32 ∨ (Rect.block (s := S64x2x512x512) S1x2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S1x2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x2x512x512 : Shape := ⟨4, ![64, 2, 512, 512]⟩
abbrev S64x2x510x510 : Shape := ⟨4, ![64, 2, 510, 510]⟩
abbrev S64x1x510x510 : Shape := ⟨4, ![64, 1, 510, 510]⟩
abbrev S64x510x510 : Shape := ⟨3, ![64, 510, 510]⟩
abbrev S_ : Shape := ⟨0, ![]⟩

abbrev nBuf : Space → Nat
  | .hbm => 268
  | .vmem => 0
  | .smem => 0
  | _ => 0

abbrev hbmTy0_0 (i : Nat) : BufTy := match i % 128 with
  | 0 => ⟨S64x2x512x512, .f32⟩
  | 1 => ⟨S64x2x512x512, .f32⟩
  | 2 => ⟨S64x2x510x510, .f32⟩
  | 3 => ⟨S64x2x510x510, .f32⟩
  | 4 => ⟨S64x2x510x510, .f32⟩
  | 5 => ⟨S64x2x510x510, .f32⟩
  | 6 => ⟨S64x2x510x510, .f32⟩
  | 7 => ⟨S64x1x510x510, .f32⟩
  | 8 => ⟨S64x510x510, .f32⟩
  | 9 => ⟨S64x1x510x510, .f32⟩
  | 10 => ⟨S64x510x510, .f32⟩
  | 11 => ⟨S64x1x510x510, .f32⟩
  | 12 => ⟨S64x510x510, .f32⟩
  | 13 => ⟨S64x1x510x510, .f32⟩
  | 14 => ⟨S64x510x510, .f32⟩
  | 15 => ⟨S64x1x510x510, .f32⟩
  | 16 => ⟨S64x510x510, .f32⟩
  | 17 => ⟨S64x1x510x510, .f32⟩
  | 18 => ⟨S64x510x510, .f32⟩
  | 19 => ⟨S64x1x510x510, .f32⟩
  | 20 => ⟨S64x510x510, .f32⟩
  | 21 => ⟨S64x1x510x510, .f32⟩
  | 22 => ⟨S64x510x510, .f32⟩
  | 23 => ⟨S64x1x510x510, .f32⟩
  | 24 => ⟨S64x510x510, .f32⟩
  | 25 => ⟨S64x1x510x510, .f32⟩
  | 26 => ⟨S64x510x510, .f32⟩
  | 27 => ⟨S64x510x510, .f32⟩
  | 28 => ⟨S_, .f32⟩
  | 29 => ⟨S64x510x510, .f32⟩
  | 30 => ⟨S64x510x510, .f32⟩
  | 31 => ⟨S64x510x510, .f32⟩
  | 32 => ⟨S_, .f32⟩
  | 33 => ⟨S64x510x510, .f32⟩
  | 34 => ⟨S64x510x510, .f32⟩
  | 35 => ⟨S64x510x510, .f32⟩
  | 36 => ⟨S_, .f32⟩
  | 37 => ⟨S64x510x510, .f32⟩
  | 38 => ⟨S64x510x510, .f32⟩
  | 39 => ⟨S64x510x510, .f32⟩
  | 40 => ⟨S_, .f32⟩
  | 41 => ⟨S64x510x510, .f32⟩
  | 42 => ⟨S64x510x510, .f32⟩
  | 43 => ⟨S64x510x510, .f32⟩
  | 44 => ⟨S64x510x510, .f32⟩
  | 45 => ⟨S64x510x510, .f32⟩
  | 46 => ⟨S64x510x510, .f32⟩
  | 47 => ⟨S64x510x510, .f32⟩
  | 48 => ⟨S_, .f32⟩
  | 49 => ⟨S64x510x510, .f32⟩
  | 50 => ⟨S64x510x510, .f32⟩
  | 51 => ⟨S64x510x510, .f32⟩
  | 52 => ⟨S64x510x510, .f32⟩
  | 53 => ⟨S64x510x510, .f32⟩
  | 54 => ⟨S64x510x510, .f32⟩
  | 55 => ⟨S64x510x510, .f32⟩
  | 56 => ⟨S64x510x510, .f32⟩
  | 57 => ⟨S64x510x510, .f32⟩
  | 58 => ⟨S_, .f32⟩
  | 59 => ⟨S64x510x510, .f32⟩
  | 60 => ⟨S64x510x510, .f32⟩
  | 61 => ⟨S64x510x510, .f32⟩
  | 62 => ⟨S64x510x510, .f32⟩
  | 63 => ⟨S64x510x510, .f32⟩
  | 64 => ⟨S64x510x510, .f32⟩
  | 65 => ⟨S64x510x510, .f32⟩
  | 66 => ⟨S_, .f32⟩
  | 67 => ⟨S64x510x510, .f32⟩
  | 68 => ⟨S64x510x510, .f32⟩
  | 69 => ⟨S64x510x510, .f32⟩
  | 70 => ⟨S64x510x510, .f32⟩
  | 71 => ⟨S64x510x510, .f32⟩
  | 72 => ⟨S64x510x510, .f32⟩
  | 73 => ⟨S64x510x510, .f32⟩
  | 74 => ⟨S64x510x510, .f32⟩
  | 75 => ⟨S64x510x510, .f32⟩
  | 76 => ⟨S_, .f32⟩
  | 77 => ⟨S64x510x510, .f32⟩
  | 78 => ⟨S64x510x510, .f32⟩
  | 79 => ⟨S_, .f32⟩
  | 80 => ⟨S64x510x510, .f32⟩
  | 81 => ⟨S64x510x510, .f32⟩
  | 82 => ⟨S64x510x510, .f32⟩
  | 83 => ⟨S64x510x510, .f32⟩
  | 84 => ⟨S_, .f32⟩
  | 85 => ⟨S64x510x510, .f32⟩
  | 86 => ⟨S64x510x510, .f32⟩
  | 87 => ⟨S64x510x510, .f32⟩
  | 88 => ⟨S64x510x510, .f32⟩
  | 89 => ⟨S_, .f32⟩
  | 90 => ⟨S64x510x510, .f32⟩
  | 91 => ⟨S64x510x510, .f32⟩
  | 92 => ⟨S64x510x510, .f32⟩
  | 93 => ⟨S64x510x510, .f32⟩
  | 94 => ⟨S_, .f32⟩
  | 95 => ⟨S64x510x510, .f32⟩
  | 96 => ⟨S64x510x510, .f32⟩
  | 97 => ⟨S64x510x510, .f32⟩
  | 98 => ⟨S64x510x510, .f32⟩
  | 99 => ⟨S64x510x510, .f32⟩
  | 100 => ⟨S64x510x510, .f32⟩
  | 101 => ⟨S64x510x510, .f32⟩
  | 102 => ⟨S_, .f32⟩
  | 103 => ⟨S64x510x510, .f32⟩
  | 104 => ⟨S64x510x510, .f32⟩
  | 105 => ⟨S64x510x510, .f32⟩
  | 106 => ⟨S64x510x510, .f32⟩
  | 107 => ⟨S64x510x510, .f32⟩
  | 108 => ⟨S_, .f32⟩
  | 109 => ⟨S64x510x510, .f32⟩
  | 110 => ⟨S64x510x510, .f32⟩
  | 111 => ⟨S64x510x510, .f32⟩
  | 112 => ⟨S64x2x510x510, .f32⟩
  | 113 => ⟨S64x2x510x510, .f32⟩
  | 114 => ⟨S64x2x510x510, .f32⟩
  | 115 => ⟨S64x2x510x510, .f32⟩
  | 116 => ⟨S64x2x510x510, .f32⟩
  | 117 => ⟨S64x1x510x510, .f32⟩
  | 118 => ⟨S64x510x510, .f32⟩
  | 119 => ⟨S64x1x510x510, .f32⟩
  | 120 => ⟨S64x510x510, .f32⟩
  | 121 => ⟨S64x1x510x510, .f32⟩
  | 122 => ⟨S64x510x510, .f32⟩
  | 123 => ⟨S64x1x510x510, .f32⟩
  | 124 => ⟨S64x510x510, .f32⟩
  | 125 => ⟨S64x1x510x510, .f32⟩
  | 126 => ⟨S64x510x510, .f32⟩
  | 127 => ⟨S64x1x510x510, .f32⟩
  | _ => ⟨S64x2x512x512, .f32⟩

abbrev hbmTy0_1 (i : Nat) : BufTy := match i % 128 with
  | 0 => ⟨S64x510x510, .f32⟩
  | 1 => ⟨S64x1x510x510, .f32⟩
  | 2 => ⟨S64x510x510, .f32⟩
  | 3 => ⟨S64x1x510x510, .f32⟩
  | 4 => ⟨S64x510x510, .f32⟩
  | 5 => ⟨S64x1x510x510, .f32⟩
  | 6 => ⟨S64x510x510, .f32⟩
  | 7 => ⟨S64x1x510x510, .f32⟩
  | 8 => ⟨S64x510x510, .f32⟩
  | 9 => ⟨S64x510x510, .f32⟩
  | 10 => ⟨S_, .f32⟩
  | 11 => ⟨S64x510x510, .f32⟩
  | 12 => ⟨S64x510x510, .f32⟩
  | 13 => ⟨S64x510x510, .f32⟩
  | 14 => ⟨S_, .f32⟩
  | 15 => ⟨S64x510x510, .f32⟩
  | 16 => ⟨S64x510x510, .f32⟩
  | 17 => ⟨S64x510x510, .f32⟩
  | 18 => ⟨S_, .f32⟩
  | 19 => ⟨S64x510x510, .f32⟩
  | 20 => ⟨S64x510x510, .f32⟩
  | 21 => ⟨S64x510x510, .f32⟩
  | 22 => ⟨S_, .f32⟩
  | 23 => ⟨S64x510x510, .f32⟩
  | 24 => ⟨S64x510x510, .f32⟩
  | 25 => ⟨S64x510x510, .f32⟩
  | 26 => ⟨S64x510x510, .f32⟩
  | 27 => ⟨S64x510x510, .f32⟩
  | 28 => ⟨S64x510x510, .f32⟩
  | 29 => ⟨S64x510x510, .f32⟩
  | 30 => ⟨S_, .f32⟩
  | 31 => ⟨S64x510x510, .f32⟩
  | 32 => ⟨S64x510x510, .f32⟩
  | 33 => ⟨S64x510x510, .f32⟩
  | 34 => ⟨S64x510x510, .f32⟩
  | 35 => ⟨S64x510x510, .f32⟩
  | 36 => ⟨S64x510x510, .f32⟩
  | 37 => ⟨S64x510x510, .f32⟩
  | 38 => ⟨S64x510x510, .f32⟩
  | 39 => ⟨S64x510x510, .f32⟩
  | 40 => ⟨S_, .f32⟩
  | 41 => ⟨S64x510x510, .f32⟩
  | 42 => ⟨S64x510x510, .f32⟩
  | 43 => ⟨S64x510x510, .f32⟩
  | 44 => ⟨S64x510x510, .f32⟩
  | 45 => ⟨S64x510x510, .f32⟩
  | 46 => ⟨S64x510x510, .f32⟩
  | 47 => ⟨S64x510x510, .f32⟩
  | 48 => ⟨S_, .f32⟩
  | 49 => ⟨S64x510x510, .f32⟩
  | 50 => ⟨S64x510x510, .f32⟩
  | 51 => ⟨S64x510x510, .f32⟩
  | 52 => ⟨S64x510x510, .f32⟩
  | 53 => ⟨S64x510x510, .f32⟩
  | 54 => ⟨S64x510x510, .f32⟩
  | 55 => ⟨S64x510x510, .f32⟩
  | 56 => ⟨S64x510x510, .f32⟩
  | 57 => ⟨S64x510x510, .f32⟩
  | 58 => ⟨S_, .f32⟩
  | 59 => ⟨S64x510x510, .f32⟩
  | 60 => ⟨S64x510x510, .f32⟩
  | 61 => ⟨S_, .f32⟩
  | 62 => ⟨S64x510x510, .f32⟩
  | 63 => ⟨S64x510x510, .f32⟩
  | 64 => ⟨S64x510x510, .f32⟩
  | 65 => ⟨S64x510x510, .f32⟩
  | 66 => ⟨S_, .f32⟩
  | 67 => ⟨S64x510x510, .f32⟩
  | 68 => ⟨S64x510x510, .f32⟩
  | 69 => ⟨S64x510x510, .f32⟩
  | 70 => ⟨S64x510x510, .f32⟩
  | 71 => ⟨S_, .f32⟩
  | 72 => ⟨S64x510x510, .f32⟩
  | 73 => ⟨S64x510x510, .f32⟩
  | 74 => ⟨S64x510x510, .f32⟩
  | 75 => ⟨S64x510x510, .f32⟩
  | 76 => ⟨S_, .f32⟩
  | 77 => ⟨S64x510x510, .f32⟩
  | 78 => ⟨S64x510x510, .f32⟩
  | 79 => ⟨S64x510x510, .f32⟩
  | 80 => ⟨S64x510x510, .f32⟩
  | 81 => ⟨S64x510x510, .f32⟩
  | 82 => ⟨S64x510x510, .f32⟩
  | 83 => ⟨S64x510x510, .f32⟩
  | 84 => ⟨S_, .f32⟩
  | 85 => ⟨S64x510x510, .f32⟩
  | 86 => ⟨S64x510x510, .f32⟩
  | 87 => ⟨S64x510x510, .f32⟩
  | 88 => ⟨S64x510x510, .f32⟩
  | 89 => ⟨S64x510x510, .f32⟩
  | 90 => ⟨S_, .f32⟩
  | 91 => ⟨S64x510x510, .f32⟩
  | 92 => ⟨S64x510x510, .f32⟩
  | 93 => ⟨S64x510x510, .f32⟩
  | 94 => ⟨S64x510x510, .f32⟩
  | 95 => ⟨S64x510x510, .f32⟩
  | 96 => ⟨S_, .f32⟩
  | 97 => ⟨S_, .f32⟩
  | 98 => ⟨S_, .f32⟩
  | 99 => ⟨S_, .f32⟩
  | 100 => ⟨S64x510x510, .f32⟩
  | 101 => ⟨S64x510x510, .f32⟩
  | 102 => ⟨S64x510x510, .f32⟩
  | 103 => ⟨S64x510x510, .f32⟩
  | 104 => ⟨S64x510x510, .f32⟩
  | 105 => ⟨S_, .f32⟩
  | 106 => ⟨S_, .f32⟩
  | 107 => ⟨S_, .f32⟩
  | 108 => ⟨S_, .f32⟩
  | 109 => ⟨S64x510x510, .f32⟩
  | 110 => ⟨S64x510x510, .f32⟩
  | 111 => ⟨S64x510x510, .f32⟩
  | 112 => ⟨S64x510x510, .f32⟩
  | 113 => ⟨S64x510x510, .f32⟩
  | 114 => ⟨S64x510x510, .f32⟩
  | 115 => ⟨S64x510x510, .f32⟩
  | 116 => ⟨S64x510x510, .f32⟩
  | 117 => ⟨S64x510x510, .f32⟩
  | 118 => ⟨S64x510x510, .f32⟩
  | 119 => ⟨S64x510x510, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S64x2x512x512, .f32⟩
  | 127 => ⟨S64x2x512x512, .f32⟩
  | _ => ⟨S64x2x512x512, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | _ => ⟨S64x2x512x512, .f32⟩

abbrev hbmTy (i : Nat) : BufTy := match i / 128 with
  | 0 => hbmTy0_0 i
  | 1 => hbmTy0_1 i
  | 2 => hbmTy0_2 i
  | _ => ⟨S64x2x512x512, .f32⟩

abbrev bufTy : (tb : Table) → Fin (tcTables nBuf tb) → BufTy
  | .hbm, ⟨i, _⟩ => hbmTy i
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_cst : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_cst_1 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_5 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_6 : Ref sig .tc := ⟨.hbm, 76, rfl⟩
abbrev main_v67 : Ref sig .tc := ⟨.hbm, 77, rfl⟩
abbrev main_v68 : Ref sig .tc := ⟨.hbm, 78, rfl⟩
abbrev main_cst_7 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_cst_8 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_cst_9 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_cst_10 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_11 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_12 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_cst_13 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_cst_14 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_15 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_cst_16 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_cst_17 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_cst_18 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_cst_19 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_cst_20 : Ref sig .tc := ⟨.hbm, 186, rfl⟩
abbrev main_v163 : Ref sig .tc := ⟨.hbm, 187, rfl⟩
abbrev main_v164 : Ref sig .tc := ⟨.hbm, 188, rfl⟩
abbrev main_cst_21 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_cst_22 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_cst_23 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_cst_24 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_cst_25 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_cst_26 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_cst_27 : Ref sig .tc := ⟨.hbm, 224, rfl⟩
abbrev main_v194 : Ref sig .tc := ⟨.hbm, 225, rfl⟩
abbrev main_cst_28 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_cst_29 : Ref sig .tc := ⟨.hbm, 233, rfl⟩
abbrev main_v201 : Ref sig .tc := ⟨.hbm, 234, rfl⟩
abbrev main_cst_30 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_cst_31 : Ref sig .tc := ⟨.hbm, 248, rfl⟩
abbrev main_v214 : Ref sig .tc := ⟨.hbm, 249, rfl⟩
abbrev main_cst_32 : Ref sig .tc := ⟨.hbm, 250, rfl⟩
abbrev main_v215 : Ref sig .tc := ⟨.hbm, 251, rfl⟩
abbrev main_cst_33 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_cst_34 : Ref sig .tc := ⟨.hbm, 256, rfl⟩
abbrev main_v219 : Ref sig .tc := ⟨.hbm, 257, rfl⟩
abbrev main_cst_35 : Ref sig .tc := ⟨.hbm, 258, rfl⟩
abbrev main_v220 : Ref sig .tc := ⟨.hbm, 259, rfl⟩
abbrev main_cst_36 : Ref sig .tc := ⟨.hbm, 260, rfl⟩
abbrev main_v221 : Ref sig .tc := ⟨.hbm, 261, rfl⟩
abbrev main_cst_37 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_cst_38 : Ref sig .tc := ⟨.hbm, 266, rfl⟩
abbrev main_v225 : Ref sig .tc := ⟨.hbm, 267, rfl⟩

abbrev nD : Nat := 1
abbrev τ : Topo := Topo.v7x

variable {F : FTy → Type} [FloatOps F]

class Facts₀ : Prop where
  slices_S64x2x512x512_S64x2x510x510_0_0_1_1 : S64x2x512x512.Slices ![0, 0, 1, 1] S64x2x510x510
  slices_S64x2x512x512_S64x2x510x510_0_0_0_1 : S64x2x512x512.Slices ![0, 0, 0, 1] S64x2x510x510
  slices_S64x2x512x512_S64x2x510x510_0_0_2_1 : S64x2x512x512.Slices ![0, 0, 2, 1] S64x2x510x510
  slices_S64x2x512x512_S64x2x510x510_0_0_1_0 : S64x2x512x512.Slices ![0, 0, 1, 0] S64x2x510x510
  slices_S64x2x512x512_S64x2x510x510_0_0_1_2 : S64x2x512x512.Slices ![0, 0, 1, 2] S64x2x510x510
  slices_S64x2x510x510_S64x1x510x510_0_0_0_0 : S64x2x510x510.Slices ![0, 0, 0, 0] S64x1x510x510
  shapeCasts_S64x1x510x510_S64x510x510 : S64x1x510x510.ShapeCasts S64x510x510
  slices_S64x2x510x510_S64x1x510x510_0_1_0_0 : S64x2x510x510.Slices ![0, 1, 0, 0] S64x1x510x510
  bcast_S_S64x510x510 : S_.BroadcastsInDim S64x510x510 (![] : Fin 0 → Fin S64x510x510.rank)
  reducesTo_S64x510x510_S_d0_1_2 : S64x510x510.ReducesTo [0, 1, 2] S_
  h_S_ : 0 < S_.numel
  reducesTo_S64x2x512x512_S_d0_1_2_3 : S64x2x512x512.ReducesTo [0, 1, 2, 3] S_

variable [Facts₀]

class Facts : Prop extends Facts₀ where

variable [Facts]
-- ==== Proof.Spec.lean ====
/-
  The mathematics both programs compute, stated once over the extended reals, with no program in sight.

  A velocity field is two channels u, v over a 512 × 512 lattice. At an interior cell (x, y) — lattice point
  (x + 1, y + 1) — the five-point stencil reads the centre m and the neighbours l, r (along the first axis) and b, t
  (along the second), and forms

    mass  = (u_r − u_l)/2 + (v_t − v_b)/2
    mom_u = ¼((u_r+u_m)² − (u_l+u_m)²) + ¼((u_t+u_m)(v_t+v_m) − (u_b+u_m)(v_b+v_m)) − ν·Δu
    mom_v = ¼((v_r+v_m)(u_r+u_m) − (v_l+v_m)(u_l+u_m)) + ¼((v_t+v_m)² − (v_b+v_m)²) − ν·Δv

  with Δw the discrete Laplacian. The loss is a weighted mean of |mass_T − mass_P|, |mom_T − mom_P| over the interior
  cells of all 64 samples and of |P − T| over all entries.

  The Laplacian is written in two ways: ν·((((w_r + w_l) + w_t) + w_b) − 4·w_m) and
  (((w_r − 2·w_m) + w_l) + ((w_t − 2·w_m) + w_b))·ν. On finite values these agree (4 = 2 + 2 in ℝ); at an infinite w_m
  they need not, which is the one place finiteness of the inputs is used.

  Also here: sums over index sets of rank 3 and 4 as iterated sums over the coordinates, the closed form of an
  accumulator that is reset at every 32nd step, and a sum over 64 samples split into two halves of 32.
-/
import Idealize.ShloMosaic.PureOps.Ideal
import Idealize.ShloMosaic.PureOps.Ideal.Laws
import Idealize.ShloMosaic.Lib.ValueIdx

noncomputable section

open scoped BigOperators

namespace Cert.Stencil

open Idealize.ShloMosaic Idealize.ShloMosaic.ValueIdx

/-! ## Sums over index sets by coordinates -/

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## An accumulator reset every 32 steps -/

/-- If g restarts from z at every multiple of 32 and otherwise adds s n to its previous value, then after k + 1
    steps of the c-th run of 32 it holds z plus the sum of those k + 1 terms. -/
theorem acc_closed {M : Type*} [AddCommMonoid M] (N : ℕ) (g s : ℕ → M) (z : M)
    (h0 : ∀ n, n < N → n % 32 = 0 → g n = z + s n)
    (h1 : ∀ n, n < N → n % 32 ≠ 0 → g n = g (n - 1) + s n) (c : ℕ) :
    ∀ k, k < 32 → 32 * c + k < N → g (32 * c + k) = z + ∑ b ∈ Finset.range (k + 1), s (32 * c + b)
  | 0, _, hN => by
    rw [h0 _ hN (by omega), Finset.sum_range_one]
  | k + 1, hk, hN => by
    rw [h1 _ hN (by omega), show 32 * c + (k + 1) - 1 = 32 * c + k by omega,
      acc_closed N g s z h0 h1 c k (by omega) (by omega), Finset.sum_range_succ _ (k + 1), add_assoc]

/-- A sum over 64 samples is the sum over the first 32 plus the sum over the last 32. -/
theorem sum_64_split {M : Type*} [AddCommMonoid M] (f : ℕ → M) :
    ∑ n : Fin 64, f n.val = ∑ b ∈ Finset.range 32, f (32 * 0 + b) + ∑ b ∈ Finset.range 32, f (32 * 1 + b) := by
  rw [Finset.sum_range, Finset.sum_range, show (64 : ℕ) = 32 + 32 from rfl, Fin.sum_univ_add]
  congr 1 <;> exact Finset.sum_congr rfl fun b _ => by simp

/-! ## The literals, as the programs spell them -/

abbrev hlf : EReal := Ideal.ofBits .f32 0x3F000000#32
abbrev qtr : EReal := Ideal.ofBits .f32 0x3E800000#32
abbrev two : EReal := Ideal.ofBits .f32 0x40000000#32
abbrev four : EReal := Ideal.ofBits .f32 0x40800000#32
abbrev nu : EReal := Ideal.ofBits .f32 0x3B23D70A#32

theorem two_eq : two = ((2 : ℝ) : EReal) := by
  simp [two, Ideal.ofBits, Ideal.ieee, -EReal.coe_mul]; norm_num
theorem four_eq : four = ((4 : ℝ) : EReal) := by
  simp [four, Ideal.ofBits, Ideal.ieee, -EReal.coe_mul]; norm_num

/-! ## The stencil at a cell -/

/-- A channel of one sample: a function on the 512 × 512 lattice. -/
abbrev Fld := Fin 512 → Fin 512 → EReal

/-- The lattice coordinate o + x of interior coordinate x, for an offset o ≤ 2. -/
def nb (o : ℕ) (x : Fin 510) (ho : o ≤ 2 := by decide) : Fin 512 := ⟨o + x.val, by have := x.isLt; omega⟩

/-- |a| on the extended reals. -/
abbrev eabs (a : EReal) : EReal := max a (-a)

def massC (U V : Fld) (x y : Fin 510) : EReal :=
  (U (nb 2 x) (nb 1 y) - U (nb 0 x) (nb 1 y)) * hlf + (V (nb 1 x) (nb 2 y) - V (nb 1 x) (nb 0 y)) * hlf

/-- ν·Δw with the centre taken four times at once. -/
def lapK (W : Fld) (x y : Fin 510) : EReal :=
  nu * ((((W (nb 2 x) (nb 1 y) + W (nb 0 x) (nb 1 y)) + W (nb 1 x) (nb 2 y)) + W (nb 1 x) (nb 0 y)) - W (nb 1 x) (nb 1 y) * four)

/-- Δw·ν as the sum of the two second differences. -/
def lapR (W : Fld) (x y : Fin 510) : EReal :=
  (((W (nb 2 x) (nb 1 y) - W (nb 1 x) (nb 1 y) * two) + W (nb 0 x) (nb 1 y))
    + ((W (nb 1 x) (nb 2 y) - W (nb 1 x) (nb 1 y) * two) + W (nb 1 x) (nb 0 y))) * nu

/-- The u-momentum residual without its Laplacian term. -/
def advU (U V : Fld) (x y : Fin 510) : EReal :=
  qtr * ((U (nb 2 x) (nb 1 y) + U (nb 1 x) (nb 1 y)) * (U (nb 2 x) (nb 1 y) + U (nb 1 x) (nb 1 y))
      - (U (nb 0 x) (nb 1 y) + U (nb 1 x) (nb 1 y)) * (U (nb 0 x) (nb 1 y) + U (nb 1 x) (nb 1 y)))
  + qtr * ((U (nb 1 x) (nb 2 y) + U (nb 1 x) (nb 1 y)) * (V (nb 1 x) (nb 2 y) + V (nb 1 x) (nb 1 y))
      - (U (nb 1 x) (nb 0 y) + U (nb 1 x) (nb 1 y)) * (V (nb 1 x) (nb 0 y) + V (nb 1 x) (nb 1 y)))

/-- The v-momentum residual without its Laplacian term. -/
def advV (U V : Fld) (x y : Fin 510) : EReal :=
  qtr * ((V (nb 2 x) (nb 1 y) + V (nb 1 x) (nb 1 y)) * (U (nb 2 x) (nb 1 y) + U (nb 1 x) (nb 1 y))
      - (V (nb 0 x) (nb 1 y) + V (nb 1 x) (nb 1 y)) * (U (nb 0 x) (nb 1 y) + U (nb 1 x) (nb 1 y)))
  + qtr * ((V (nb 1 x) (nb 2 y) + V (nb 1 x) (nb 1 y)) * (V (nb 1 x) (nb 2 y) + V (nb 1 x) (nb 1 y))
      - (V (nb 1 x) (nb 0 y) + V (nb 1 x) (nb 1 y)) * (V (nb 1 x) (nb 0 y) + V (nb 1 x) (nb 1 y)))

/-- |mass_T − mass_P| at a cell. -/
def cellMass (Up Vp Ut Vt : Fld) (x y : Fin 510) : EReal :=
  eabs (massC Ut Vt x y - massC Up Vp x y)

/-- |mom_u,T − mom_u,P| + |mom_v,T − mom_v,P| at a cell, the Laplacian as lapK. -/
def cellMomK (Up Vp Ut Vt : Fld) (x y : Fin 510) : EReal :=
  eabs ((advU Ut Vt x y - lapK Ut x y) - (advU Up Vp x y - lapK Up x y))
  + eabs ((advV Ut Vt x y - lapK Vt x y) - (advV Up Vp x y - lapK Vp x y))

/-- The same with the Laplacian as lapR. -/
def cellMomR (Up Vp Ut Vt : Fld) (x y : Fin 510) : EReal :=
  eabs ((advU Ut Vt x y - lapR Ut x y) - (advU Up Vp x y - lapR Up x y))
  + eabs ((advV Ut Vt x y - lapR Vt x y) - (advV Up Vp x y - lapR Vp x y))

/-- A field all of whose values are real numbers. -/
def Finite (W : Fld) : Prop := ∀ a b, ∃ r : ℝ, W a b = (r : EReal)

/-- On a finite field the two spellings of the Laplacian term agree. -/
theorem lapK_eq_lapR (W : Fld) (hW : Finite W) (x y : Fin 510) : lapK W x y = lapR W x y := by
  unfold lapK lapR
  obtain ⟨r, hr⟩ := hW (nb 2 x) (nb 1 y)
  obtain ⟨l, hl⟩ := hW (nb 0 x) (nb 1 y)
  obtain ⟨t, ht⟩ := hW (nb 1 x) (nb 2 y)
  obtain ⟨b, hb⟩ := hW (nb 1 x) (nb 0 y)
  obtain ⟨c, hc⟩ := hW (nb 1 x) (nb 1 y)
  rw [hr, hl, ht, hb, hc, two_eq, four_eq, mul_comm nu]
  congr 1
  norm_cast
  ring

theorem cellMomK_eq_cellMomR (Up Vp Ut Vt : Fld) (h1 : Finite Up) (h2 : Finite Vp) (h3 : Finite Ut) (h4 : Finite Vt)
    (x y : Fin 510) : cellMomK Up Vp Ut Vt x y = cellMomR Up Vp Ut Vt x y := by
  unfold cellMomK cellMomR
  rw [lapK_eq_lapR Ut h3, lapK_eq_lapR Up h1, lapK_eq_lapR Vt h4, lapK_eq_lapR Vp h2]

/-! ## Samples, blocks and the loss -/

/-- An input array: 64 samples of two channels on the lattice. -/
abbrev Arr := (⟨4, ![64, 2, 512, 512]⟩ : Shape).Idx → EReal

/-- One sample of it, as a grid step of the kernel sees it. -/
abbrev Blk := (⟨4, ![1, 2, 512, 512]⟩ : Shape).Idx → EReal

/-- Channel ch of sample n. -/
def fld (X : Arr) (n : Fin 64) (ch : Fin 2) : Fld := fun a b => X (ix4 n ch a b)

/-- Channel ch of a one-sample block. -/
def bfld (B : Blk) (ch : Fin 2) : Fld := fun a b => B (ix4 (0 : Fin 1) ch a b)

/-- The sum over a sample's interior cells of a cell function of its four channels (pred u, v; truth u, v). -/
def cells (f : Fld → Fld → Fld → Fld → Fin 510 → Fin 510 → EReal) (Up Vp Ut Vt : Fld) : EReal :=
  ∑ x : Fin 510, ∑ y : Fin 510, f Up Vp Ut Vt x y

/-- The sum over the whole lattice of |p − t| for one channel. -/
def l1 (Wp Wt : Fld) : EReal := ∑ x : Fin 512, ∑ y : Fin 512, eabs (Wp x y - Wt x y)

def sampleMass (P T : Arr) (n : Fin 64) : EReal := cells cellMass (fld P n 0) (fld P n 1) (fld T n 0) (fld T n 1)
def sampleMomK (P T : Arr) (n : Fin 64) : EReal := cells cellMomK (fld P n 0) (fld P n 1) (fld T n 0) (fld T n 1)
def sampleMomR (P T : Arr) (n : Fin 64) : EReal := cells cellMomR (fld P n 0) (fld P n 1) (fld T n 0) (fld T n 1)
def sampleL1 (P T : Arr) (n : Fin 64) : EReal := l1 (fld P n 0) (fld T n 0) + l1 (fld P n 1) (fld T n 1)

/-- An array all of whose entries are real numbers. -/
def FiniteArr (X : Arr) : Prop := ∀ i, ∃ r : ℝ, X i = (r : EReal)

theorem finite_fld (X : Arr) (hX : FiniteArr X) (n : Fin 64) (ch : Fin 2) : Finite (fld X n ch) :=
  fun a b => hX (ix4 n ch a b)

theorem sampleMomK_eq_sampleMomR (P T : Arr) (hP : FiniteArr P) (hT : FiniteArr T) (n : Fin 64) :
    sampleMomK P T n = sampleMomR P T n := by
  unfold sampleMomK sampleMomR cells
  refine Finset.sum_congr rfl fun x _ => Finset.sum_congr rfl fun y _ => ?_
  exact cellMomK_eq_cellMomR _ _ _ _ (finite_fld P hP n 0) (finite_fld P hP n 1) (finite_fld T hT n 0)
    (finite_fld T hT n 1) x y

abbrev cN1 : EReal := Ideal.ofBits .f32 0x4B7E0100#32
abbrev cN2 : EReal := Ideal.ofBits .f32 0x4C000000#32
abbrev c5 : EReal := Ideal.ofBits .f32 0x40A00000#32
abbrev c25 : EReal := Ideal.ofBits .f32 0x41C80000#32
abbrev c3 : EReal := Ideal.ofBits .f32 0x40400000#32
abbrev z0 : EReal := Ideal.ofBits .f32 0x00000000#32

theorem z0_eq : z0 = 0 := Ideal.ofBits_zero_f32

/-- The loss from the three totals: (5·a/N₁ + 25·b/N₁ + l/N₂)/3, as both programs spell it. -/
def combine (a b l : EReal) : EReal :=
  Ideal.div ((Ideal.div a cN1 * c5 + Ideal.div b cN1 * c25) + Ideal.div l cN2) c3

end Cert.Stencil

end
-- ==== Proof.Finite.lean ====
/-
  The precondition, read: every entry of both inputs satisfies |x| < +∞ on the extended reals, so every entry is a
  real number.
-/
import proofs.«162951_j53257594470622_2_alg».proof.Proof.Spec
import proofs.«162951_j53257594470622_2_alg».proof.Pre_finite_inputs
import proofs.«162951_j53257594470622_2_alg».proof.Proof.Gen.Pre_finite_inputs
import Idealize.ShloMosaic.Lib.ReduceAll
import Idealize.ShloMosaic.Lib.ValueIdx
import Idealize.ShloMosaic.PureOps.Ideal.Laws

noncomputable section

namespace Cert.Stencil

open Idealize.ShloMosaic Idealize.ShloMosaic.ValueIdx

instance : Subsingleton Cert.Pre_finite_inputs.S_.Idx := ⟨fun a b => funext fun d => d.elim0⟩

/-- The pattern of +∞. -/
theorem inf_eq : Ideal.ofBits .f32 0x7F800000#32 = (⊤ : EReal) := by
  simp [Ideal.ofBits, Ideal.ieee]

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  rw [inf_eq] at h
  have hlt : max x (-x) < ⊤ := by
    by_contra hn
    unfold Ideal.cmp at h
    simp [hn] at h
  induction x using EReal.rec with
  | bot => simp at hlt
  | coe r => exact ⟨r, rfl⟩
  | top => simp at hlt

/-- The precondition holds only of arrays of real numbers. -/
theorem finite_of_pre (P T : Arr) (h : Cert.Pre_finite_inputs.fn (F := Ideal) P T = fun _ => 1#1) :
    FiniteArr P ∧ FiniteArr T := by
  have h0 := congrFun h ix0
  dsimp only [Cert.Pre_finite_inputs.fn] at h0
  obtain ⟨h1, h2⟩ := IntOp.andi_eq_one.1 h0
  refine ⟨fun i => ?_, fun i => ?_⟩
  · exact real_of_abs_lt_top _ (Host.reduce_andi_all _ _ _ _ ix0 h1 i)
  · exact real_of_abs_lt_top _ (Host.reduce_andi_all _ _ _ _ ix0 h2 i)

end Cert.Stencil

end
-- ==== Proof.KPieces.lean ====
/-
  What one grid step does to the three running sums, read off the body's stores.

  A step loads the two channels of its prediction block and of its truth block, forms the three per-sample sums and
  adds each to its running sum; the first step of a run of 32 first resets the running sums to zero, and the last
  step also writes the three sums into lanes 0, 1, 2 of row 0 of the output tile. Here each of these contents is
  identified with one pure term of the step's two blocks and the previous running sums, at any float instance.
-/
import proofs.«162951_j53257594470622_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KVal

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Channel 0 of a block, as the body loads it. -/
def ld0 (x : Vec F S1x2x512x512 .f32) : Vec F S1x1x512x512 .f32 :=
  View.ld x (Rect.unit (s := S1x2x512x512) ![0, 0, 0, 0] S1x1x512x512.size Gen.inb_S1x2x512x512_S1x1x512x512_0_0_0_0)
/-- Channel 1 of a block, as the body loads it. -/
def ld1 (x : Vec F S1x2x512x512 .f32) : Vec F S1x1x512x512 .f32 :=
  View.ld x (Rect.unit (s := S1x2x512x512) ![0, 1, 0, 0] S1x1x512x512.size Gen.inb_S1x2x512x512_S1x1x512x512_0_1_0_0)

/-- The running mass sum after a step: the previous one plus the step's sum of |mass_T − mass_P|. -/
def updMass (x0 x1 : Vec F S1x2x512x512 .f32) (xs : Vec F S1x1 .f32) : Vec F S1x1 .f32 :=
  k0_pay56 (k0_pay32 (k0_pay28 (ld0 x1)) (k0_pay29 (ld1 x1))) (k0_pay50 (k0_pay36 (k0_pay6 (ld0 x0))) (k0_pay37 (k0_pay6 (ld0 x0))) (k0_pay43 (k0_pay7 (ld1 x0))) (k0_pay44 (k0_pay7 (ld1 x0)))) xs
/-- The running momentum sum after a step. -/
def updMom (x0 x1 : Vec F S1x2x512x512 .f32) (xs : Vec F S1x1 .f32) : Vec F S1x1 .f32 :=
  k0_pay57 (k0_pay33 (k0_pay10 (ld0 x1)) (k0_pay11 (ld0 x1)) (k0_pay12 (ld0 x1)) (k0_pay13 (ld0 x1)) (k0_pay14 (ld0 x1)) (k0_pay22 (ld0 x1)) (k0_pay23 (ld0 x1)) (k0_pay26 (ld1 x1)) (k0_pay27 (ld1 x1)) (k0_pay30 (ld0 x1)) (k0_pay31 (ld0 x1))) (k0_pay34 (k0_pay15 (ld1 x1)) (k0_pay16 (ld1 x1)) (k0_pay17 (ld1 x1)) (k0_pay18 (ld1 x1)) (k0_pay19 (ld1 x1)) (k0_pay20 (ld0 x1)) (k0_pay21 (ld0 x1)) (k0_pay24 (ld1 x1)) (k0_pay25 (ld1 x1)) (k0_pay26 (ld1 x1)) (k0_pay27 (ld1 x1))) (k0_pay51 (k0_pay35 (k0_pay6 (ld0 x0))) (k0_pay36 (k0_pay6 (ld0 x0))) (k0_pay37 (k0_pay6 (ld0 x0))) (k0_pay38 (k0_pay6 (ld0 x0))) (k0_pay39 (k0_pay6 (ld0 x0))) (k0_pay40 (k0_pay7 (ld1 x0))) (k0_pay43 (k0_pay7 (ld1 x0))) (k0_pay44 (k0_pay7 (ld1 x0))) (k0_pay45 (k0_pay6 (ld0 x0))) (k0_pay46 (k0_pay6 (ld0 x0))) (k0_pay47 (k0_pay6 (ld0 x0)))) (k0_pay52 (k0_pay40 (k0_pay7 (ld1 x0))) (k0_pay41 (k0_pay7 (ld1 x0))) (k0_pay42 (k0_pay7 (ld1 x0))) (k0_pay43 (k0_pay7 (ld1 x0))) (k0_pay44 (k0_pay7 (ld1 x0))) (k0_pay45 (k0_pay6 (ld0 x0))) (k0_pay46 (k0_pay6 (ld0 x0)))) (k0_pay53 (k0_pay40 (k0_pay7 (ld1 x0))) (k0_pay41 (k0_pay7 (ld1 x0))) (k0_pay42 (k0_pay7 (ld1 x0))) (k0_pay43 (k0_pay7 (ld1 x0))) (k0_pay44 (k0_pay7 (ld1 x0)))) k0_pay54 xs
/-- The running L1 sum after a step. -/
def updL1 (x0 x1 : Vec F S1x2x512x512 .f32) (xs : Vec F S1x1 .f32) : Vec F S1x1 .f32 :=
  k0_pay1 (k0_pay55 (k0_pay6 (ld0 x0)) (k0_pay7 (ld1 x0)) (k0_pay8 (ld0 x1)) (k0_pay9 (ld1 x1))) xs

/-! ## A middle step -/

theorem sout0_B_0_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S1x2x512x512 .f32) (xs0 xs1 xs2 : Vec F S1x1 .f32) :
    sout0_B_0 c i arg2 harg2 arg3 harg3 arg4 harg4 arg5 harg5 arg6 harg6 arg7 harg7 hc0 hc1 x0 x1 xs0 xs1 xs2 = updMass x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, View.ld_unit_zero (S := S1x1) hz2]
  rfl

theorem sout0_B_1_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S1x2x512x512 .f32) (xs0 xs1 xs2 : Vec F S1x1 .f32) :
    sout0_B_1 c i arg2 harg2 arg3 harg3 arg4 harg4 arg5 harg5 arg6 harg6 arg7 harg7 hc0 hc1 x0 x1 xs0 xs1 xs2 = updMom x0 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg6.read_unread, View.ld_unit_zero (S := S1x1) hz2]
  rfl

theorem sout0_B_2_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i) (x0 x1 : Vec F S1x2x512x512 .f32) (xs0 xs1 xs2 : Vec F S1x1 .f32) :
    sout0_B_2 c i arg2 harg2 arg3 harg3 arg4 harg4 arg5 harg5 arg6 harg6 arg7 harg7 hc0 hc1 x0 x1 xs0 xs1 xs2 = updL1 x0 x1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg7.read_unread, View.ld_unit_zero (S := S1x1) hz2]
  rfl

/-! ## The first step of a run: the sums restart from the stored zero -/

theorem sout0_A_0_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S1x2x512x512 .f32) :
    sout0_A_0 c i arg2 harg2 arg3 harg3 arg4 harg4 arg5 harg5 arg6 harg6 arg7 harg7 hc0 hc1 x0 x1 = updMass x0 x1 k0_pay3 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1x1) hz2]
  rfl

theorem sout0_A_1_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S1x2x512x512 .f32) :
    sout0_A_1 c i arg2 harg2 arg3 harg3 arg4 harg4 arg5 harg5 arg6 harg6 arg7 harg7 hc0 hc1 x0 x1 = updMom x0 x1 k0_pay4 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1x1) hz2]
  rfl

theorem sout0_A_2_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i) (x0 x1 : Vec F S1x2x512x512 .f32) :
    sout0_A_2 c i arg2 harg2 arg3 harg3 arg4 harg4 arg5 harg5 arg6 harg6 arg7 harg7 hc0 hc1 x0 x1 = updL1 x0 x1 k0_pay5 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S1x1) hz2]
  rfl

/-! ## The last step of a run: the sums as a middle step leaves them, and the output tile built from them -/

theorem sout0_C_0_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S1x2x512x512 .f32) (xs0 xs1 xs2 : Vec F S1x1 .f32) :
    sout0_C_0 c i arg2 harg2 arg3 harg3 arg4 harg4 arg5 harg5 arg6 harg6 arg7 harg7 hc0 hc1 x0 x1 xs0 xs1 xs2 = updMass x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, View.ld_unit_zero (S := S1x1) hz2]
  rfl

theorem sout0_C_1_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S1x2x512x512 .f32) (xs0 xs1 xs2 : Vec F S1x1 .f32) :
    sout0_C_1 c i arg2 harg2 arg3 harg3 arg4 harg4 arg5 harg5 arg6 harg6 arg7 harg7 hc0 hc1 x0 x1 xs0 xs1 xs2 = updMom x0 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg6.read_unread, View.ld_unit_zero (S := S1x1) hz2]
  rfl

theorem sout0_C_2_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S1x2x512x512 .f32) (xs0 xs1 xs2 : Vec F S1x1 .f32) :
    sout0_C_2 c i arg2 harg2 arg3 harg3 arg4 harg4 arg5 harg5 arg6 harg6 arg7 harg7 hc0 hc1 x0 x1 xs0 xs1 xs2 = updL1 x0 x1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg7.read_unread, View.ld_unit_zero (S := S1x1) hz2]
  rfl

theorem out0_C_2_eq (c : Dev nD) (i : grid0.Coords) (arg2 : Memref sig .tc .vmem S1x2x512x512 .f32) (harg2 : arg2.IsWhole) (arg3 : Memref sig .tc .vmem S1x2x512x512 .f32) (harg3 : arg3.IsWhole) (arg4 : Memref sig .tc .vmem S1x8x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i) (x0 x1 : Vec F S1x2x512x512 .f32) (xs0 xs1 xs2 : Vec F S1x1 .f32) :
    out0_C_2 c i arg2 harg2 arg3 harg3 arg4 harg4 arg5 harg5 arg6 harg6 arg7 harg7 hc0 hc1 x0 x1 xs0 xs1 xs2
      = k0_pay2 (updMass x0 x1 xs0) (updMom x0 x1 xs1) (updL1 x0 x1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz3, View.readCov_unit_zero (S := S1x1) _ hz2, View.readCov_unit_zero (S := S1x1) _ hz2,
    View.readCov_unit_zero (S := S1x1) _ hz2]
  simp only [View.readAt_eq_ld, harg2.read_unread, harg3.read_unread, harg5.read_unread, harg6.read_unread,
    harg7.read_unread, View.ld_unit_zero (S := S1x1) hz2]
  rfl

end Cert.KernelIdeal.KVal

end
-- ==== Proof.KPoint.lean ====
/-
  One grid step's three sums, as mathematics. At the exact instance each running sum after a step is the previous
  one plus, respectively, the sum over the sample's interior cells of |mass_T − mass_P|, the same of the two
  momentum residual differences, and the sum over the whole lattice of |P − T| for both channels.

  A sum over a square array is taken in two stages (along rows, then down the column of row sums): the double sum.
  A shifted interior slab of a channel plane read at a cell is the block at the shifted lattice point.
-/
import proofs.«162951_j53257594470622_2_alg».proof.Proof.Spec
import proofs.«162951_j53257594470622_2_alg».proof.Proof.KPieces
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KVal

open Cert.KernelIdeal Cert.KernelIdeal.Gen
open Idealize.ShloMosaic Idealize.ShloMosaic.ValueIdx Cert.Stencil

/-! ## Reading a block -/

theorem ld0_apply (B : FVec Ideal S1x2x512x512 .f32) (p q : Fin 512) :
    ld0 (F := Ideal) B (ix4 (0 : Fin 1) (0 : Fin 1) p q) = B (ix4 (0 : Fin 1) (0 : Fin 2) p q) := by
  unfold ld0 View.ld
  refine congrArg B (funext fun d => Fin.ext ?_)
  match d with
  | ⟨0, _⟩ => show 0 + 1 * 0 = 0; omega
  | ⟨1, _⟩ => show 0 + 1 * 0 = 0; omega
  | ⟨2, _⟩ => show 0 + 1 * p.val = p.val; omega
  | ⟨3, _⟩ => show 0 + 1 * q.val = q.val; omega

theorem ld1_apply (B : FVec Ideal S1x2x512x512 .f32) (p q : Fin 512) :
    ld1 (F := Ideal) B (ix4 (0 : Fin 1) (0 : Fin 1) p q) = B (ix4 (0 : Fin 1) (1 : Fin 2) p q) := by
  unfold ld1 View.ld
  refine congrArg B (funext fun d => Fin.ext ?_)
  match d with
  | ⟨0, _⟩ => show 0 + 1 * 0 = 0; omega
  | ⟨1, _⟩ => show 1 + 1 * 0 = 1; omega
  | ⟨2, _⟩ => show 0 + 1 * p.val = p.val; omega
  | ⟨3, _⟩ => show 0 + 1 * q.val = q.val; omega

/-- A loaded channel as a plane, at a lattice point. -/
theorem plane_apply (v : FVec Ideal S1x1x512x512 .f32) (hsc : S1x1x512x512.ShapeCasts S512x512) (p q : Fin 512) :
    shapeCast S512x512 v hsc (ix2 p q) = v (ix4 (0 : Fin 1) (0 : Fin 1) p q) :=
  shapeCast_apply v hsc (ix2 p q) (ix4 (0 : Fin 1) (0 : Fin 1) p q) (by
    rw [Shape.rowMajor_val_four, Shape.rowMajor_val_two]
    show ((0 * 1 + 0) * 512 + p.val) * 512 + q.val = p.val * 512 + q.val
    omega)

/-- The interior slab of a plane shifted by (a, b), at a cell. -/
theorem slab_apply (v : FVec Ideal S512x512 .f32) (a b : ℕ) (hsl : S512x512.Slices ![a, b] S510x510) (x y : Fin 510) :
    extractStridedSlice S510x510 ![a, b] v hsl (ix2 x y)
      = v (ix2 (⟨a + x.val, Nat.lt_of_lt_of_le (Nat.add_lt_add_left x.isLt a) (hsl.2 0)⟩ : Fin 512)
          (⟨b + y.val, Nat.lt_of_lt_of_le (Nat.add_lt_add_left y.isLt b) (hsl.2 1)⟩ : Fin 512)) :=
  extractStridedSlice_apply _ v hsl (ix2 x y) _ (fun d => by
    match d with
    | ⟨0, _⟩ => rfl
    | ⟨1, _⟩ => rfl)

theorem absf_apply' {s : Shape} (f : FVec Ideal s .f32) (i : s.Idx) : absf f i = eabs (f i) := rfl

/-! ## A two-stage sum over a square array -/

theorem sum2d_510 (a : FVec Ideal S510x510 .f32) :
    shapeCast S1x1 (multiReduction .add [0] S1 (shapeCast S510x1 (multiReduction .add [1] S510 a 0x00000000#32
      Gen.reduces_S510x510_S510 (.inl rfl) rfl) Gen.shapeCasts_S510_S510x1) 0x00000000#32 Gen.reduces_S510x1_S1 (.inl rfl) rfl)
      Gen.shapeCasts_S1_S1x1 (ix2 (0 : Fin 1) (0 : Fin 1))
      = ∑ x : Fin 510, ∑ y : Fin 510, a (ix2 x y) := by
  refine (shapeCast_apply _ Gen.shapeCasts_S1_S1x1 (ix2 (0 : Fin 1) (0 : Fin 1)) (ix1 (0 : Fin 1)) (by
    rw [Shape.rowMajor_val_one, Shape.rowMajor_val_two]; rfl)).trans ?_
  refine (Ideal.multiReduction_add_single _ 0x00000000#32 Gen.reduces_S510x1_S1 (.inl rfl) rfl (ix1 (0 : Fin 1))).trans ?_
  refine Finset.sum_congr rfl fun x _ => ?_
  refine (shapeCast_apply _ Gen.shapeCasts_S510_S510x1 _ (ix1 x) (by
    rw [Shape.rowMajor_val_one, Shape.rowMajor_val_two]
    show x.val = x.val * 1 + 0
    omega)).trans ?_
  refine (Ideal.multiReduction_add_single _ 0x00000000#32 Gen.reduces_S510x510_S510 (.inl rfl) rfl (ix1 x)).trans ?_
  refine Finset.sum_congr rfl fun y _ => congrArg a (funext fun d => ?_)
  match d with
  | ⟨0, _⟩ => rfl
  | ⟨1, _⟩ => rfl

theorem sum2d_512 (a : FVec Ideal S512x512 .f32) :
    shapeCast S1x1 (multiReduction .add [0] S1 (shapeCast S512x1 (multiReduction .add [1] S512 a 0x00000000#32
      Gen.reduces_S512x512_S512 (.inl rfl) rfl) Gen.shapeCasts_S512_S512x1) 0x00000000#32 Gen.reduces_S512x1_S1 (.inl rfl) rfl)
      Gen.shapeCasts_S1_S1x1 (ix2 (0 : Fin 1) (0 : Fin 1))
      = ∑ x : Fin 512, ∑ y : Fin 512, a (ix2 x y) := by
  refine (shapeCast_apply _ Gen.shapeCasts_S1_S1x1 (ix2 (0 : Fin 1) (0 : Fin 1)) (ix1 (0 : Fin 1)) (by
    rw [Shape.rowMajor_val_one, Shape.rowMajor_val_two]; rfl)).trans ?_
  refine (Ideal.multiReduction_add_single _ 0x00000000#32 Gen.reduces_S512x1_S1 (.inl rfl) rfl (ix1 (0 : Fin 1))).trans ?_
  refine Finset.sum_congr rfl fun x _ => ?_
  refine (shapeCast_apply _ Gen.shapeCasts_S512_S512x1 _ (ix1 x) (by
    rw [Shape.rowMajor_val_one, Shape.rowMajor_val_two]
    show x.val = x.val * 1 + 0
    omega)).trans ?_
  refine (Ideal.multiReduction_add_single _ 0x00000000#32 Gen.reduces_S512x512_S512 (.inl rfl) rfl (ix1 x)).trans ?_
  refine Finset.sum_congr rfl fun y _ => congrArg a (funext fun d => ?_)
  match d with
  | ⟨0, _⟩ => rfl
  | ⟨1, _⟩ => rfl

/-! ## The three sums of a step -/

variable (x0 x1 : FVec Ideal S1x2x512x512 .f32)

/-- The mass residual difference at a cell: truth block minus prediction block. -/
theorem massCell (x y : Fin 510) :
    absf (F := Ideal) (subf (k0_pay32 (k0_pay28 (ld0 x1)) (k0_pay29 (ld1 x1)))
      (k0_pay50 (k0_pay36 (k0_pay6 (ld0 x0))) (k0_pay37 (k0_pay6 (ld0 x0))) (k0_pay43 (k0_pay7 (ld1 x0)))
        (k0_pay44 (k0_pay7 (ld1 x0))))) (ix2 x y)
      = cellMass (bfld x0 0) (bfld x0 1) (bfld x1 0) (bfld x1 1) x y := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, absf_apply', subf_apply, addf_apply, mulf_apply, broadcast_apply, slab_apply, plane_apply,
    ld0_apply, ld1_apply]
  rfl

theorem updMass_apply (xs : FVec Ideal S1x1 .f32) :
    updMass (F := Ideal) x0 x1 xs (ix2 (0 : Fin 1) (0 : Fin 1))
      = xs (ix2 (0 : Fin 1) (0 : Fin 1)) + cells cellMass (bfld x0 0) (bfld x0 1) (bfld x1 0) (bfld x1 1) := by
  unfold updMass k0_pay56
  refine (congrFun (shapeCast_self _ _) _).trans ?_
  refine congrArg (xs (ix2 (0 : Fin 1) (0 : Fin 1)) + ·) ?_
  refine (sum2d_510 _).trans ?_
  unfold cells
  exact Finset.sum_congr rfl fun x _ => Finset.sum_congr rfl fun y _ => massCell x0 x1 x y

/-- The two momentum residual differences at a cell. -/
theorem momCell (x y : Fin 510) :
    addf (F := Ideal) (absf (subf (k0_pay33 (k0_pay10 (ld0 x1)) (k0_pay11 (ld0 x1)) (k0_pay12 (ld0 x1)) (k0_pay13 (ld0 x1)) (k0_pay14 (ld0 x1)) (k0_pay22 (ld0 x1)) (k0_pay23 (ld0 x1)) (k0_pay26 (ld1 x1)) (k0_pay27 (ld1 x1)) (k0_pay30 (ld0 x1)) (k0_pay31 (ld0 x1))) (k0_pay51 (k0_pay35 (k0_pay6 (ld0 x0))) (k0_pay36 (k0_pay6 (ld0 x0))) (k0_pay37 (k0_pay6 (ld0 x0))) (k0_pay38 (k0_pay6 (ld0 x0))) (k0_pay39 (k0_pay6 (ld0 x0))) (k0_pay40 (k0_pay7 (ld1 x0))) (k0_pay43 (k0_pay7 (ld1 x0))) (k0_pay44 (k0_pay7 (ld1 x0))) (k0_pay45 (k0_pay6 (ld0 x0))) (k0_pay46 (k0_pay6 (ld0 x0))) (k0_pay47 (k0_pay6 (ld0 x0))))))
      (absf (subf (k0_pay34 (k0_pay15 (ld1 x1)) (k0_pay16 (ld1 x1)) (k0_pay17 (ld1 x1)) (k0_pay18 (ld1 x1)) (k0_pay19 (ld1 x1)) (k0_pay20 (ld0 x1)) (k0_pay21 (ld0 x1)) (k0_pay24 (ld1 x1)) (k0_pay25 (ld1 x1)) (k0_pay26 (ld1 x1)) (k0_pay27 (ld1 x1))) (subf (k0_pay52 (k0_pay40 (k0_pay7 (ld1 x0))) (k0_pay41 (k0_pay7 (ld1 x0))) (k0_pay42 (k0_pay7 (ld1 x0))) (k0_pay43 (k0_pay7 (ld1 x0))) (k0_pay44 (k0_pay7 (ld1 x0))) (k0_pay45 (k0_pay6 (ld0 x0))) (k0_pay46 (k0_pay6 (ld0 x0)))) (mulf k0_pay54 (k0_pay53 (k0_pay40 (k0_pay7 (ld1 x0))) (k0_pay41 (k0_pay7 (ld1 x0))) (k0_pay42 (k0_pay7 (ld1 x0))) (k0_pay43 (k0_pay7 (ld1 x0))) (k0_pay44 (k0_pay7 (ld1 x0)))))))) (ix2 x y)
      = cellMomK (bfld x0 0) (bfld x0 1) (bfld x1 0) (bfld x1 1) x y := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, absf_apply', subf_apply, addf_apply, mulf_apply, broadcast_apply, slab_apply, plane_apply,
    ld0_apply, ld1_apply]
  rfl

theorem updMom_apply (xs : FVec Ideal S1x1 .f32) :
    updMom (F := Ideal) x0 x1 xs (ix2 (0 : Fin 1) (0 : Fin 1))
      = xs (ix2 (0 : Fin 1) (0 : Fin 1)) + cells cellMomK (bfld x0 0) (bfld x0 1) (bfld x1 0) (bfld x1 1) := by
  unfold updMom k0_pay57
  refine (congrFun (shapeCast_self _ _) _).trans ?_
  refine congrArg (xs (ix2 (0 : Fin 1) (0 : Fin 1)) + ·) ?_
  refine (sum2d_510 _).trans ?_
  unfold cells
  exact Finset.sum_congr rfl fun x _ => Finset.sum_congr rfl fun y _ => momCell x0 x1 x y

/-- |P − T| at a lattice point, one channel. -/
theorem l1Cell0 (p q : Fin 512) :
    absf (F := Ideal) (subf (k0_pay6 (ld0 x0)) (k0_pay8 (ld0 x1))) (ix2 p q) = eabs (bfld x0 0 p q - bfld x1 0 p q) := by
  simp only [k0_pay6, k0_pay8, absf_apply', subf_apply, plane_apply, ld0_apply]
  rfl
theorem l1Cell1 (p q : Fin 512) :
    absf (F := Ideal) (subf (k0_pay7 (ld1 x0)) (k0_pay9 (ld1 x1))) (ix2 p q) = eabs (bfld x0 1 p q - bfld x1 1 p q) := by
  simp only [k0_pay7, k0_pay9, absf_apply', subf_apply, plane_apply, ld1_apply]
  rfl

theorem updL1_apply (xs : FVec Ideal S1x1 .f32) :
    updL1 (F := Ideal) x0 x1 xs (ix2 (0 : Fin 1) (0 : Fin 1))
      = xs (ix2 (0 : Fin 1) (0 : Fin 1)) + (l1 (bfld x0 0) (bfld x1 0) + l1 (bfld x0 1) (bfld x1 1)) := by
  unfold updL1 k0_pay1 k0_pay55
  refine (congrFun (shapeCast_self _ _) _).trans ?_
  refine congrArg (xs (ix2 (0 : Fin 1) (0 : Fin 1)) + ·) ?_
  refine congrArg₂ (· + ·) ((sum2d_512 _).trans ?_) ((sum2d_512 _).trans ?_)
  · unfold l1
    exact Finset.sum_congr rfl fun p _ => Finset.sum_congr rfl fun q _ => l1Cell0 x0 x1 p q
  · unfold l1
    exact Finset.sum_congr rfl fun p _ => Finset.sum_congr rfl fun q _ => l1Cell1 x0 x1 p q

end Cert.KernelIdeal.KVal

end
-- ==== Proof.KChain.lean ====
/-
  The three running sums along the grid, and the output tiles.

  The grid has 64 steps, two runs of 32; step t works on sample t. Each run starts its three sums from the stored
  zero, every step adds its sample's three sums, and the run's last step builds the output tile of the run from the
  three sums. So after step t of a run the sums hold the stored zero plus the per-sample sums of the run's samples
  up to t, added in order — by induction along the grid.
-/
import proofs.«162951_j53257594470622_2_alg».proof.Proof.KPieces
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ) (ρ : Dev nD → PrngReg)

/-! ## One step, by its place in its run -/

/-- The first step of a run leaves the three sums at the stored zero plus its sample's. -/
theorem step_first (c : Dev nD) (t : Fin cfg0.N) (h0 : t.val % 32 = 0) (h1 : ¬t.val % 32 = 31) :
    (outsAt0 m c t.val t.isLt).2
      = (updMass (iblk m c 0 t) (iblk m c 1 t) k0_pay3, updMom (iblk m c 0 t) (iblk m c 1 t) k0_pay4,
          updL1 (iblk m c 0 t) (iblk m c 1 t) k0_pay5) := by
  refine (congrArg Prod.snd (outsAt0_A m c t h0 h1)).trans ?_
  refine Prod.ext ?_ (Prod.ext ?_ ?_)
  · exact sout0_A_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t)
  · exact sout0_A_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t)
  · exact sout0_A_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun hh => h1 ((hcond0_1 t).mp hh)) (iblk m c 0 t) (iblk m c 1 t)

/-- A middle step adds its sample's sums to what the step before left. -/
theorem step_mid (c : Dev nD) (t : Fin cfg0.N) (h0 : ¬t.val % 32 = 0) (h1 : ¬t.val % 32 = 31) :
    (outsAt0 m c t.val t.isLt).2
      = (updMass (iblk m c 0 t) (iblk m c 1 t) (outsAt0 m c (t.val - 1) (Nat.lt_of_le_of_lt (Nat.sub_le _ _) t.isLt)).2.1,
          updMom (iblk m c 0 t) (iblk m c 1 t) (outsAt0 m c (t.val - 1) (Nat.lt_of_le_of_lt (Nat.sub_le _ _) t.isLt)).2.2.1,
          updL1 (iblk m c 0 t) (iblk m c 1 t) (outsAt0 m c (t.val - 1) (Nat.lt_of_le_of_lt (Nat.sub_le _ _) t.isLt)).2.2.2) := by
  refine (congrArg Prod.snd (outsAt0_B m c t h0 h1)).trans ?_
  refine Prod.ext ?_ (Prod.ext ?_ ?_)
  · exact sout0_B_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sout0_B_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sout0_B_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) (fun hh => h1 ((hcond0_1 t).mp hh)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The last step of a run does the same to the sums, -/
theorem step_last (c : Dev nD) (t : Fin cfg0.N) (h0 : ¬t.val % 32 = 0) (h1 : t.val % 32 = 31) :
    (outsAt0 m c t.val t.isLt).2
      = (updMass (iblk m c 0 t) (iblk m c 1 t) (outsAt0 m c (t.val - 1) (Nat.lt_of_le_of_lt (Nat.sub_le _ _) t.isLt)).2.1,
          updMom (iblk m c 0 t) (iblk m c 1 t) (outsAt0 m c (t.val - 1) (Nat.lt_of_le_of_lt (Nat.sub_le _ _) t.isLt)).2.2.1,
          updL1 (iblk m c 0 t) (iblk m c 1 t) (outsAt0 m c (t.val - 1) (Nat.lt_of_le_of_lt (Nat.sub_le _ _) t.isLt)).2.2.2) := by
  refine (congrArg Prod.snd (outsAt0_C m c t h0 h1)).trans ?_
  refine Prod.ext ?_ (Prod.ext ?_ ?_)
  · exact sout0_C_0_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sout0_C_1_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
  · exact sout0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- and builds the run's output tile from the three sums it leaves. -/
theorem tile_last (c : Dev nD) (t : Fin cfg0.N) (h0 : ¬t.val % 32 = 0) (h1 : t.val % 32 = 31) :
    (outsAt0 m c t.val t.isLt).1
      = k0_pay2 (outsAt0 m c t.val t.isLt).2.1 (outsAt0 m c t.val t.isLt).2.2.1 (outsAt0 m c t.val t.isLt).2.2.2 := by
  have e := step_last m c t h0 h1
  refine ((congrArg Prod.fst (outsAt0_C m c t h0 h1)).trans
    (out0_C_2_eq c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun hh => h0 ((hcond0_0 t).mp hh)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)).trans ?_
  rw [e]

/-! ## A running sum along the grid -/

/-- A running sum: at the first step of a run the step's update of z, otherwise of the previous value. -/
def run1 (upd : Vec F S1x2x512x512 .f32 → Vec F S1x2x512x512 .f32 → Vec F S1x1 .f32 → Vec F S1x1 .f32)
    (z : Vec F S1x1 .f32) (c : Dev nD) : (n : ℕ) → n < cfg0.N → Vec F S1x1 .f32
  | 0, h => upd (iblk m c 0 ⟨0, h⟩) (iblk m c 1 ⟨0, h⟩) z
  | n + 1, h => upd (iblk m c 0 ⟨n + 1, h⟩) (iblk m c 1 ⟨n + 1, h⟩)
      (if (n + 1) % 32 = 0 then z else run1 upd z c n (Nat.lt_of_succ_lt h))

/-- What the three scratch cells hold after step n: the three running sums. -/
theorem outsAt_eq (c : Dev nD) : ∀ (n : ℕ) (h : n < cfg0.N),
    (outsAt0 m c n h).2 = (run1 m updMass k0_pay3 c n h, run1 m updMom k0_pay4 c n h, run1 m updL1 k0_pay5 c n h)
  | 0, h => step_first m c ⟨0, h⟩ rfl (by show ¬(0 % 32 = 31); decide)
  | n + 1, h => by
    have hN : cfg0.N = 64 := N_0
    by_cases h0 : (n + 1) % 32 = 0
    · refine (step_first m c ⟨n + 1, h⟩ h0 (by dsimp only; omega)).trans ?_
      simp only [run1, if_pos h0]
    · have ih := outsAt_eq c n (Nat.lt_of_succ_lt h)
      by_cases h1 : (n + 1) % 32 = 31
      · refine (step_last m c ⟨n + 1, h⟩ h0 h1).trans ?_
        show (updMass _ _ (outsAt0 m c n _).2.1, updMom _ _ (outsAt0 m c n _).2.2.1, updL1 _ _ (outsAt0 m c n _).2.2.2) = _
        rw [ih]
        simp only [run1, if_neg h0]
      · refine (step_mid m c ⟨n + 1, h⟩ h0 h1).trans ?_
        show (updMass _ _ (outsAt0 m c n _).2.1, updMom _ _ (outsAt0 m c n _).2.2.1, updL1 _ _ (outsAt0 m c n _).2.2.2) = _
        rw [ih]
        simp only [run1, if_neg h0]

end Cert.KernelIdeal.KVal

end
-- ==== Proof.KFinal.lean ====
/-
  The output array and the scalar result, at any float instance.

  The output array has one 8 × 128 tile per run of 32 steps; the run's last step writes it, so the array ends holding,
  in tile r, the tile built from the three running sums after step 32r + 31. The host operations after the region
  read lanes 0, 1, 2 of row 0 of both tiles, add the two runs' sums pairwise, and combine them.
-/
import proofs.«162951_j53257594470622_2_alg».proof.Proof.KChain
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ) (ρ : Dev nD → PrngReg)

/-- Where the windows' blocks sit: step t reads sample t of both inputs and belongs to output tile t / 32. -/
theorem idx_out : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

theorem xsize_out : ∀ t : Fin cfg0.N, win0_2.xsize (grid0.coords t) 0 = 1 ∧ win0_2.xsize (grid0.coords t) 1 = 8
    ∧ win0_2.xsize (grid0.coords t) 2 = 128 :=
  (by decide +kernel : ∀ t : Fin grid0.N, win0_2.xsize (grid0.coords t) 0 = 1 ∧ win0_2.xsize (grid0.coords t) 1 = 8
    ∧ win0_2.xsize (grid0.coords t) 2 = 128)

/-- The output tile a run's last step builds, from the three running sums after step t. -/
def tileAt (c : Dev nD) (t : Fin cfg0.N) : Vec F S1x8x128 .f32 :=
  k0_pay2 (run1 m updMass k0_pay3 c t.val t.isLt) (run1 m updMom k0_pay4 c t.val t.isLt) (run1 m updL1 k0_pay5 c t.val t.isLt)

/-- The last step of run r. -/
def lastPt (r : Fin 2) : Fin cfg0.N := ⟨32 * r.val + 31, by rw [show cfg0.N = 64 from N_0]; omega⟩

/-- The output array: tile r is the tile of run r. -/
def tiles (c : Dev nD) : Buf (Elt F) ((c : Thread nD τ).loc main_v0) :=
  fun i => tileAt m c (lastPt (i 0)) (Idealize.ShloMosaic.ValueIdx.ix3 (0 : Fin 1) (i 1) (i 2))

theorem tiles_apply (c : Dev nD) (t : Fin cfg0.N) (h31 : t.val % 32 = 31) (i : S2x8x128.Idx) (y : S1x8x128.Idx)
    (h0 : (i 0).val = t.val / 32) (h1 : (i 1).val = (y 1).val) (h2 : (i 2).val = (y 2).val) :
    tiles m c i = tileAt m c t y := by
  unfold tiles
  have ht : lastPt (i 0) = t := Fin.ext (by show 32 * (i 0).val + 31 = t.val; rw [h0]; omega)
  rw [ht]
  refine congrArg (tileAt m c t) (funext fun d => Fin.ext ?_)
  match d with
  | ⟨0, _⟩ => have hy : (y 0).val < 1 := (y 0).isLt; show 0 = (y 0).val; omega
  | ⟨1, _⟩ => exact h1
  | ⟨2, _⟩ => exact h2

/-- A write-back writes the run's tile: the block of the output array at tile t / 32. -/
theorem flushed_eq (c : Dev nD) (t : Fin cfg0.N) (hf : (cfg0.win 2).flush t = true) :
    (dats m 0 c).flushed 2 t = ((cfg0.win 2).blk t).view.read (Elt F) (tiles m c) := by
  have h31 : t.val % 32 = 31 := (flush0_2 t).mp hf
  show (cfg0.win 2).cut (grid0.coords t) ((dats m 0 c).after 2 t) = _
  rw [after0_2, tile_last m c t (by omega) h31, outsAt_eq m c t.val t.isLt]
  funext y
  rw [View.read_apply]
  show tileAt m c t y = tiles m c _
  refine (tiles_apply m c t h31 _ y ?_ ?_ ?_).symm
  · show win0_2.index t 0 * 1 + 1 * (y 0).val = t.val / 32
    have hy : (y 0).val < win0_2.xsize (grid0.coords t) 0 := (y 0).isLt
    rw [(xsize_out t).1] at hy
    rw [(idx_out t).1]; omega
  · show win0_2.index t 1 * 8 + 1 * (y 1).val = (y 1).val
    rw [(idx_out t).2.1]; omega
  · show win0_2.index t 2 * 128 + 1 * (y 2).val = (y 2).val
    rw [(idx_out t).2.2]; omega

/-- The two tiles cover the output array, so it ends holding \`tiles\`. -/
theorem final_out (c : Dev nD) : (dats m 0 c).arrAt 2 cfg0.N = tiles m c :=
  (dats m 0 c).arrAt_eq_of_cover 2 (tiles m c) (flushed_eq m c) fun i =>
    ⟨lastPt (i 0), (flush0_2 _).mpr (by show (32 * (i 0).val + 31) % 32 = 31; omega), by
      show i ∈ ((View.whole main_v0).slice (win0_2.rect (lastPt (i 0)))).set
      rw [View.set_slice_whole, Rect.mem_set_unit]
      intro a
      have h0 : (i 0 : Nat) < 2 := (i 0).isLt
      have h1 : (i 1 : Nat) < 8 := (i 1).isLt
      have h2 : (i 2 : Nat) < 128 := (i 2).isLt
      have hv : (lastPt (i 0)).val = 32 * (i 0).val + 31 := rfl
      match a with
      | ⟨0, _⟩ =>
        show win0_2.index (lastPt (i 0)) 0 * win0_2.size 0 ≤ (i 0 : Nat) ∧ (i 0 : Nat) < win0_2.index (lastPt (i 0)) 0 * win0_2.size 0 + win0_2.xsize (grid0.coords (lastPt (i 0))) 0
        rw [(idx_out _).1, (xsize_out _).1, hv, show win0_2.size 0 = 1 from rfl]; omega
      | ⟨1, _⟩ =>
        show win0_2.index (lastPt (i 0)) 1 * win0_2.size 1 ≤ (i 1 : Nat) ∧ (i 1 : Nat) < win0_2.index (lastPt (i 0)) 1 * win0_2.size 1 + win0_2.xsize (grid0.coords (lastPt (i 0))) 1
        rw [(idx_out _).2.1, (xsize_out _).2.1]; omega
      | ⟨2, _⟩ =>
        show win0_2.index (lastPt (i 0)) 2 * win0_2.size 2 ≤ (i 2 : Nat) ∧ (i 2 : Nat) < win0_2.index (lastPt (i 0)) 2 * win0_2.size 2 + win0_2.xsize (grid0.coords (lastPt (i 0))) 2
        rw [(idx_out _).2.2, (xsize_out _).2.2]; omega⟩

/-- The host operations after the region, as one function of the output array: lanes 0, 1, 2 of row 0 of the two
    tiles added pairwise, the first two sums over N₁ times 5 and 25, the third over N₂, added, over 3. -/
def lossOf (A : FVec F S2x8x128 .f32) : FVec F S_ .f32 :=
  Host.divf (addf (addf
    (mulf (Host.divf (addf (shapeCast S_ (extractStridedSlice S1x1x1 ![0, 0, 0] A Gen.slices_S2x8x128_S1x1x1_0_0_0) Gen.shapeCasts_S1x1x1_S_)
        (shapeCast S_ (extractStridedSlice S1x1x1 ![1, 0, 0] A Gen.slices_S2x8x128_S1x1x1_1_0_0) Gen.shapeCasts_S1x1x1_S_))
      (constant S_ .f32 0x4B7E0100#32)) (constant S_ .f32 0x40A00000#32))
    (mulf (Host.divf (addf (shapeCast S_ (extractStridedSlice S1x1x1 ![0, 0, 1] A Gen.slices_S2x8x128_S1x1x1_0_0_1) Gen.shapeCasts_S1x1x1_S_)
        (shapeCast S_ (extractStridedSlice S1x1x1 ![1, 0, 1] A Gen.slices_S2x8x128_S1x1x1_1_0_1) Gen.shapeCasts_S1x1x1_S_))
      (constant S_ .f32 0x4B7E0100#32)) (constant S_ .f32 0x41C80000#32)))
    (Host.divf (addf (shapeCast S_ (extractStridedSlice S1x1x1 ![0, 0, 2] A Gen.slices_S2x8x128_S1x1x1_0_0_2) Gen.shapeCasts_S1x1x1_S_)
        (shapeCast S_ (extractStridedSlice S1x1x1 ![1, 0, 2] A Gen.slices_S2x8x128_S1x1x1_1_0_2) Gen.shapeCasts_S1x1x1_S_))
      (constant S_ .f32 0x4C000000#32)))
    (constant S_ .f32 0x40400000#32)

set_option maxHeartbeats 2000000 in
/-- The host operations after the region, run from any buffer contents: the result buffer holds \`lossOf\` of the
    output array's contents. -/
theorem tail_of (W : Valuation τ sig (Elt F)) :
    StableHlo.after hostOps1 W (Proc.devRef .tc main_v23) = lossOf (W (Proc.devRef .tc main_v0)) := by
  unfold lossOf
  simp only [hostOps1]
  after_results_simp
  rfl

/-- The result buffer after the host operations that follow the region. -/
theorem tail_eq (c : Dev nD) :
    Pipeline.afterTail₀ cfgs (dats m) 0 (V0 m) [hostOps1] c main_v23 = lossOf (tiles m c) := by
  unfold Pipeline.afterTail₀
  simp only [List.flatten_cons, List.flatten_nil, List.append_nil]
  refine (tail_of _).trans (congrArg lossOf ?_)
  exact (Pipeline.withArrays_arr spec0 launch0.win.arr_inj c _ _ 2).trans (final_out m c)

/-- The run, read: the result at \`lossOf\` of the two tiles, the arguments unchanged. -/
theorem run : θ_run defs (onTc (τ := τ) (main (F := F))) ⟨m, fun _ => 0, ρ⟩ fun r => ∀ c : Dev nD,
      r.2.mem ((c : Thread nD τ).loc main_v23) = lossOf (tiles m c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ?_) (run_main m ρ)
  refine ⟨((h c).2 main_v23 (by decide)).trans (tail_eq m c), ?_, ?_⟩
  · exact ((h c).1 0).trans (((dats m 0 c).arrAt_in 0 rfl _).trans ((A_eq m c 0).trans (V_main_arg0 m c)))
  · exact ((h c).1 1).trans (((dats m 0 c).arrAt_in 1 rfl _).trans ((A_eq m c 1).trans (V_main_arg1 m c)))

end Cert.KernelIdeal.KVal

end
-- ==== Proof.KLoss.lean ====
/-
  The kernel's scalar result, as mathematics. At the exact instance: a running sum's cell after a run's last step is
  the stored zero plus the run's 32 per-sample sums; a tile's lanes 0, 1, 2 of row 0 are the three running sums; the
  host operations after the region read those lanes of both tiles; a step's blocks are its sample of the two inputs.
-/
import proofs.«162951_j53257594470622_2_alg».proof.Proof.Spec
import proofs.«162951_j53257594470622_2_alg».proof.Proof.KPoint
import proofs.«162951_j53257594470622_2_alg».proof.Proof.KFinal
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KVal

open Cert.KernelIdeal Cert.KernelIdeal.Gen
open Idealize.ShloMosaic Idealize.ShloMosaic.TcCoe Idealize.SL.Sem Idealize.ShloMosaic.ValueIdx Cert.Stencil

variable (m : (ℓ : Loc nD τ sig) → Buf (Elt Ideal) ℓ)

/-! ## A running sum in closed form -/

/-- The per-sample term of step n, zero past the grid. -/
def termAt (s : Blk → Blk → EReal) (c : Dev nD) (n : ℕ) : EReal :=
  if h : n < cfg0.N then s (iblk m c 0 ⟨n, h⟩) (iblk m c 1 ⟨n, h⟩) else 0

theorem run1_closed (upd : Vec Ideal S1x2x512x512 .f32 → Vec Ideal S1x2x512x512 .f32 → Vec Ideal S1x1 .f32 → Vec Ideal S1x1 .f32)
    (z : Vec Ideal S1x1 .f32) (s : Blk → Blk → EReal)
    (hupd : ∀ x0 x1 xs, upd x0 x1 xs (ix2 (0 : Fin 1) (0 : Fin 1)) = xs (ix2 (0 : Fin 1) (0 : Fin 1)) + s x0 x1)
    (hz : z (ix2 (0 : Fin 1) (0 : Fin 1)) = z0) (c : Dev nD) (r : Fin 2) :
    run1 m upd z c (lastPt r).val (lastPt r).isLt (ix2 (0 : Fin 1) (0 : Fin 1))
      = z0 + ∑ b ∈ Finset.range 32, termAt m s c (32 * r.val + b) := by
  have hN : cfg0.N = 64 := N_0
  let g : ℕ → EReal := fun n => if h : n < cfg0.N then run1 m upd z c n h (ix2 (0 : Fin 1) (0 : Fin 1)) else 0
  have h0 : ∀ n, n < cfg0.N → n % 32 = 0 → g n = z0 + termAt m s c n := by
    intro n hn hmod
    show (if h : n < cfg0.N then run1 m upd z c n h (ix2 (0 : Fin 1) (0 : Fin 1)) else 0) = _
    rw [dif_pos hn]
    unfold termAt
    rw [dif_pos hn]
    cases n with
    | zero => exact (hupd _ _ _).trans (by rw [hz])
    | succ k =>
      show upd _ _ (if (k + 1) % 32 = 0 then z else _) _ = _
      rw [if_pos hmod]
      exact (hupd _ _ _).trans (by rw [hz])
  have h1 : ∀ n, n < cfg0.N → n % 32 ≠ 0 → g n = g (n - 1) + termAt m s c n := by
    intro n hn hmod
    cases n with
    | zero => exact absurd rfl hmod
    | succ k =>
      have hk : k < cfg0.N := Nat.lt_of_succ_lt hn
      show (if h : k + 1 < cfg0.N then run1 m upd z c (k + 1) h (ix2 (0 : Fin 1) (0 : Fin 1)) else 0)
        = (if h : k < cfg0.N then run1 m upd z c k h (ix2 (0 : Fin 1) (0 : Fin 1)) else 0) + _
      rw [dif_pos hn, dif_pos hk]
      unfold termAt
      rw [dif_pos hn]
      show upd _ _ (if (k + 1) % 32 = 0 then z else _) _ = _
      rw [if_neg hmod]
      exact hupd _ _ _
  have key := acc_closed cfg0.N g (termAt m s c) z0 h0 h1 r.val 31 (by omega) (by have := r.isLt; omega)
  have hg : g (32 * r.val + 31) = run1 m upd z c (lastPt r).val (lastPt r).isLt (ix2 (0 : Fin 1) (0 : Fin 1)) := by
    exact dif_pos (show 32 * r.val + 31 < cfg0.N from (lastPt r).isLt)
  rw [← hg, key]

/-! ## The stored zero and the three closed forms -/

theorem pay3_apply : k0_pay3 (F := Ideal) (ix2 (0 : Fin 1) (0 : Fin 1)) = z0 := by
  unfold k0_pay3
  exact congrFun (shapeCast_self _ _) _
theorem pay4_apply : k0_pay4 (F := Ideal) (ix2 (0 : Fin 1) (0 : Fin 1)) = z0 := by
  unfold k0_pay4
  exact congrFun (shapeCast_self _ _) _
theorem pay5_apply : k0_pay5 (F := Ideal) (ix2 (0 : Fin 1) (0 : Fin 1)) = z0 := by
  unfold k0_pay5
  exact congrFun (shapeCast_self _ _) _

/-- The three per-sample sums of a step, of its two blocks. -/
def blkMass (B0 B1 : Blk) : EReal := cells cellMass (bfld B0 0) (bfld B0 1) (bfld B1 0) (bfld B1 1)
def blkMom (B0 B1 : Blk) : EReal := cells cellMomK (bfld B0 0) (bfld B0 1) (bfld B1 0) (bfld B1 1)
def blkL1 (B0 B1 : Blk) : EReal := l1 (bfld B0 0) (bfld B1 0) + l1 (bfld B0 1) (bfld B1 1)

theorem mass_closed (c : Dev nD) (r : Fin 2) :
    run1 m (updMass (F := Ideal)) (k0_pay3 (F := Ideal)) c (lastPt r).val (lastPt r).isLt (ix2 (0 : Fin 1) (0 : Fin 1))
      = z0 + ∑ b ∈ Finset.range 32, termAt m blkMass c (32 * r.val + b) :=
  run1_closed m (updMass (F := Ideal)) (k0_pay3 (F := Ideal)) blkMass (fun x0 x1 xs => updMass_apply x0 x1 xs) pay3_apply c r
theorem mom_closed (c : Dev nD) (r : Fin 2) :
    run1 m (updMom (F := Ideal)) (k0_pay4 (F := Ideal)) c (lastPt r).val (lastPt r).isLt (ix2 (0 : Fin 1) (0 : Fin 1))
      = z0 + ∑ b ∈ Finset.range 32, termAt m blkMom c (32 * r.val + b) :=
  run1_closed m (updMom (F := Ideal)) (k0_pay4 (F := Ideal)) blkMom (fun x0 x1 xs => updMom_apply x0 x1 xs) pay4_apply c r
theorem l1_closed (c : Dev nD) (r : Fin 2) :
    run1 m (updL1 (F := Ideal)) (k0_pay5 (F := Ideal)) c (lastPt r).val (lastPt r).isLt (ix2 (0 : Fin 1) (0 : Fin 1))
      = z0 + ∑ b ∈ Finset.range 32, termAt m blkL1 c (32 * r.val + b) :=
  run1_closed m (updL1 (F := Ideal)) (k0_pay5 (F := Ideal)) blkL1 (fun x0 x1 xs => updL1_apply x0 x1 xs) pay5_apply c r

/-! ## The lanes of a tile -/

theorem lane_bcast (a : FVec Ideal S1x1 .f32) (h1 : S1x1.ShapeCasts S1x1) (h2 : S1x1.Broadcasts S8x128)
    (r : Fin 8) (l : Fin 128) :
    broadcastTo S8x128 (shapeCast S1x1 a h1) h2 (ix2 r l) = a (ix2 (0 : Fin 1) (0 : Fin 1)) := by
  rw [shapeCast_self]
  exact broadcastTo_apply a h2 (ix2 r l) (ix2 (0 : Fin 1) (0 : Fin 1)) (fun d => by
    match d with
    | ⟨0, _⟩ => rfl
    | ⟨1, _⟩ => rfl)

theorem lane0 (a b c : FVec Ideal S1x1 .f32) :
    k0_pay2 a b c (ix3 (0 : Fin 1) (0 : Fin 8) (0 : Fin 128)) = a (ix2 (0 : Fin 1) (0 : Fin 1)) := by
  unfold k0_pay2
  refine (shapeCast_ab_1ab_apply _ _ (0 : Fin 1) (0 : Fin 8) (0 : Fin 128)).trans ?_
  simp only [select_apply, lane_bcast]
  rfl
theorem lane1 (a b c : FVec Ideal S1x1 .f32) :
    k0_pay2 a b c (ix3 (0 : Fin 1) (0 : Fin 8) (1 : Fin 128)) = b (ix2 (0 : Fin 1) (0 : Fin 1)) := by
  unfold k0_pay2
  refine (shapeCast_ab_1ab_apply _ _ (0 : Fin 1) (0 : Fin 8) (1 : Fin 128)).trans ?_
  simp only [select_apply, lane_bcast]
  rfl
theorem lane2 (a b c : FVec Ideal S1x1 .f32) :
    k0_pay2 a b c (ix3 (0 : Fin 1) (0 : Fin 8) (2 : Fin 128)) = c (ix2 (0 : Fin 1) (0 : Fin 1)) := by
  unfold k0_pay2
  refine (shapeCast_ab_1ab_apply _ _ (0 : Fin 1) (0 : Fin 8) (2 : Fin 128)).trans ?_
  simp only [select_apply, lane_bcast]
  rfl

/-! ## The host operations after the region -/

theorem pick (A : FVec Ideal S2x8x128 .f32) (r l : ℕ) (hr : r < 2) (hl : l < 128)
    (hsl : S2x8x128.Slices ![r, 0, l] S1x1x1) (hsc : S1x1x1.ShapeCasts S_) :
    shapeCast S_ (extractStridedSlice S1x1x1 ![r, 0, l] A hsl) hsc ix0
      = A (ix3 (⟨r, hr⟩ : Fin 2) (0 : Fin 8) (⟨l, hl⟩ : Fin 128)) := by
  refine (shapeCast_apply _ hsc ix0 (ix3 (0 : Fin 1) (0 : Fin 1) (0 : Fin 1)) (by
    rw [Shape.rowMajor_val_three]; rfl)).trans ?_
  exact extractStridedSlice_apply _ A hsl _ _ (fun d => by
    match d with
    | ⟨0, _⟩ => rfl
    | ⟨1, _⟩ => rfl
    | ⟨2, _⟩ => rfl)

theorem lossOf_apply (A : FVec Ideal S2x8x128 .f32) :
    lossOf (F := Ideal) A ix0 = combine (A (ix3 (0 : Fin 2) (0 : Fin 8) (0 : Fin 128)) + A (ix3 (1 : Fin 2) (0 : Fin 8) (0 : Fin 128)))
      (A (ix3 (0 : Fin 2) (0 : Fin 8) (1 : Fin 128)) + A (ix3 (1 : Fin 2) (0 : Fin 8) (1 : Fin 128)))
      (A (ix3 (0 : Fin 2) (0 : Fin 8) (2 : Fin 128)) + A (ix3 (1 : Fin 2) (0 : Fin 8) (2 : Fin 128))) := by
  unfold lossOf combine
  show Ideal.div ((Ideal.div (_ + _) _ * _ + Ideal.div (_ + _) _ * _) + Ideal.div (_ + _) _) _ = _
  rw [pick A 0 0 (by decide) (by decide), pick A 1 0 (by decide) (by decide), pick A 0 1 (by decide) (by decide),
    pick A 1 1 (by decide) (by decide), pick A 0 2 (by decide) (by decide), pick A 1 2 (by decide) (by decide)]
  rfl

/-- Row 0 of tile r of the output array is row 0 of run r's tile. -/
theorem tiles_at (c : Dev nD) (r : Fin 2) (l : Fin 128) :
    tiles m c (ix3 r (0 : Fin 8) l) = tileAt m c (lastPt r) (ix3 (0 : Fin 1) (0 : Fin 8) l) := rfl

/-- The kernel's result: the combination of the two runs' sums. -/
theorem kernel_value (c : Dev nD) :
    lossOf (F := Ideal) (tiles m c) ix0
      = combine ((z0 + ∑ b ∈ Finset.range 32, termAt m blkMass c (32 * 0 + b)) + (z0 + ∑ b ∈ Finset.range 32, termAt m blkMass c (32 * 1 + b)))
          ((z0 + ∑ b ∈ Finset.range 32, termAt m blkMom c (32 * 0 + b)) + (z0 + ∑ b ∈ Finset.range 32, termAt m blkMom c (32 * 1 + b)))
          ((z0 + ∑ b ∈ Finset.range 32, termAt m blkL1 c (32 * 0 + b)) + (z0 + ∑ b ∈ Finset.range 32, termAt m blkL1 c (32 * 1 + b))) := by
  rw [lossOf_apply, tiles_at, tiles_at, tiles_at, tiles_at, tiles_at, tiles_at]
  unfold tileAt
  rw [lane0, lane0, lane1, lane1, lane2, lane2, mass_closed m c 0, mass_closed m c 1, mom_closed m c 0, mom_closed m c 1,
    l1_closed m c 0, l1_closed m c 1]
  rfl

/-! ## A step's blocks are its sample -/

theorem idx_in0 : ∀ t : Fin cfg0.N, win0_0.index t 0 = t.val ∧ win0_0.index t 1 = 0 ∧ win0_0.index t 2 = 0
    ∧ win0_0.index t 3 = 0 :=
  (by decide +kernel : ∀ t : Fin grid0.N, win0_0.index t 0 = t.val ∧ win0_0.index t 1 = 0 ∧ win0_0.index t 2 = 0
    ∧ win0_0.index t 3 = 0)
theorem idx_in1 : ∀ t : Fin cfg0.N, win0_1.index t 0 = t.val ∧ win0_1.index t 1 = 0 ∧ win0_1.index t 2 = 0
    ∧ win0_1.index t 3 = 0 :=
  (by decide +kernel : ∀ t : Fin grid0.N, win0_1.index t 0 = t.val ∧ win0_1.index t 1 = 0 ∧ win0_1.index t 2 = 0
    ∧ win0_1.index t 3 = 0)

/-- The sample a step works on. -/
def sampleOf (t : Fin cfg0.N) : Fin 64 := ⟨t.val, lt_of_lt_of_eq t.isLt N_0⟩

theorem iblk0_apply (c : Dev nD) (t : Fin cfg0.N) (ch : Fin 2) (p q : Fin 512) :
    (iblk m c 0 t : Blk) (ix4 (0 : Fin 1) ch p q)
      = (m ((c : Thread nD τ).loc main_arg0) : Arr) (ix4 (sampleOf t) ch p q) := by
  unfold iblk
  rw [View.read_apply]
  show m (c.tc.loc main_arg0) _ = m (c.tc.loc main_arg0) _
  congr 1
  funext a
  apply Fin.ext
  match a with
  | ⟨0, _⟩ => show win0_0.index t 0 * 1 + 1 * 0 = t.val; rw [(idx_in0 t).1]; omega
  | ⟨1, _⟩ => show win0_0.index t 1 * 2 + 1 * ch.val = ch.val; rw [(idx_in0 t).2.1]; omega
  | ⟨2, _⟩ => show win0_0.index t 2 * 512 + 1 * p.val = p.val; rw [(idx_in0 t).2.2.1]; omega
  | ⟨3, _⟩ => show win0_0.index t 3 * 512 + 1 * q.val = q.val; rw [(idx_in0 t).2.2.2]; omega

theorem iblk1_apply (c : Dev nD) (t : Fin cfg0.N) (ch : Fin 2) (p q : Fin 512) :
    (iblk m c 1 t : Blk) (ix4 (0 : Fin 1) ch p q)
      = (m ((c : Thread nD τ).loc main_arg1) : Arr) (ix4 (sampleOf t) ch p q) := by
  unfold iblk
  rw [View.read_apply]
  show m (c.tc.loc main_arg1) _ = m (c.tc.loc main_arg1) _
  congr 1
  funext a
  apply Fin.ext
  match a with
  | ⟨0, _⟩ => show win0_1.index t 0 * 1 + 1 * 0 = t.val; rw [(idx_in1 t).1]; omega
  | ⟨1, _⟩ => show win0_1.index t 1 * 2 + 1 * ch.val = ch.val; rw [(idx_in1 t).2.1]; omega
  | ⟨2, _⟩ => show win0_1.index t 2 * 512 + 1 * p.val = p.val; rw [(idx_in1 t).2.2.1]; omega
  | ⟨3, _⟩ => show win0_1.index t 3 * 512 + 1 * q.val = q.val; rw [(idx_in1 t).2.2.2]; omega

theorem bfld_iblk0 (c : Dev nD) (t : Fin cfg0.N) (ch : Fin 2) :
    bfld (iblk m c 0 t : Blk) ch = fld (m ((c : Thread nD τ).loc main_arg0) : Arr) (sampleOf t) ch :=
  funext fun p => funext fun q => iblk0_apply m c t ch p q
theorem bfld_iblk1 (c : Dev nD) (t : Fin cfg0.N) (ch : Fin 2) :
    bfld (iblk m c 1 t : Blk) ch = fld (m ((c : Thread nD τ).loc main_arg1) : Arr) (sampleOf t) ch :=
  funext fun p => funext fun q => iblk1_apply m c t ch p q

/-- The prediction and the truth, as the kernel's run finds them. -/
abbrev argP (c : Dev nD) : Arr := m ((c : Thread nD τ).loc main_arg0)
abbrev argT (c : Dev nD) : Arr := m ((c : Thread nD τ).loc main_arg1)

/-- A step's term is its sample's sum. -/
theorem term_mass (c : Dev nD) (n : Fin 64) :
    termAt m blkMass c n.val = sampleMass (argP m c) (argT m c) n := by
  unfold termAt
  rw [dif_pos (show n.val < cfg0.N from lt_of_lt_of_eq n.isLt N_0.symm)]
  unfold blkMass sampleMass
  rw [bfld_iblk0, bfld_iblk0, bfld_iblk1, bfld_iblk1]
  rfl
theorem term_mom (c : Dev nD) (n : Fin 64) :
    termAt m blkMom c n.val = sampleMomK (argP m c) (argT m c) n := by
  unfold termAt
  rw [dif_pos (show n.val < cfg0.N from lt_of_lt_of_eq n.isLt N_0.symm)]
  unfold blkMom sampleMomK
  rw [bfld_iblk0, bfld_iblk0, bfld_iblk1, bfld_iblk1]
  rfl
theorem term_l1 (c : Dev nD) (n : Fin 64) :
    termAt m blkL1 c n.val = sampleL1 (argP m c) (argT m c) n := by
  unfold termAt
  rw [dif_pos (show n.val < cfg0.N from lt_of_lt_of_eq n.isLt N_0.symm)]
  unfold blkL1 sampleL1
  rw [bfld_iblk0, bfld_iblk0, bfld_iblk1, bfld_iblk1]
  rfl

/-- The two runs' sums together are the sum over all 64 samples. -/
theorem two_runs (f : ℕ → EReal) (g : Fin 64 → EReal) (h : ∀ n : Fin 64, f n.val = g n) :
    (z0 + ∑ b ∈ Finset.range 32, f (32 * 0 + b)) + (z0 + ∑ b ∈ Finset.range 32, f (32 * 1 + b)) = z0 + ∑ n : Fin 64, g n := by
  rw [z0_eq, zero_add, zero_add, zero_add, ← sum_64_split f]
  exact Finset.sum_congr rfl fun n _ => h n

/-- The kernel's result in the specification's terms. -/
theorem kernel_loss (c : Dev nD) :
    lossOf (F := Ideal) (tiles m c) ix0
      = combine (z0 + ∑ n : Fin 64, sampleMass (argP m c) (argT m c) n) (z0 + ∑ n : Fin 64, sampleMomK (argP m c) (argT m c) n)
          (z0 + ∑ n : Fin 64, sampleL1 (argP m c) (argT m c) n) := by
  rw [kernel_value, two_runs _ _ (term_mass m c), two_runs _ _ (term_mom m c), two_runs _ _ (term_l1 m c)]

end Cert.KernelIdeal.KVal

end
-- ==== Proof.RefSlabs.lean ====
/-
  The reference, read. Its generated run ends with the result at one composed term of the two argument arrays; here
  that term is evaluated at its single index: each of the twenty shifted channel slabs read at a cell is the input at
  the shifted lattice point, each of the three reduced arrays at a cell is the cell function of the specification,
  a sum over all cells of all samples is the sum over the samples of the per-sample sums, and the last few scalar
  operations are the weighted combination.
-/
import proofs.«162951_j53257594470622_2_alg».proof.Proof.Spec
import proofs.«162951_j53257594470622_2_alg».proof.Proof.Gen.ReferenceIdeal.Run
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Value
open Idealize.ShloMosaic Idealize.ShloMosaic.ValueIdx Idealize.ShloMosaic.StableHlo Cert.Stencil

/-- A channel slab shifted by (a, b), as the reference builds it — a slice of the array at offsets (0, 0, a, b), then
    the slice of channel ch, then the unit channel axis dropped — read at cell (x, y) of sample n, is the array at
    lattice point (a + x, b + y) of that channel. -/
theorem shifted_apply (X : Arr) (a b ch : ℕ) (ha : a ≤ 2) (hb : b ≤ 2) (hch : ch < 2)
    (h1 : S64x2x512x512.Slices ![0, 0, a, b] S64x2x510x510)
    (h2 : S64x2x510x510.Slices ![0, ch, 0, 0] S64x1x510x510)
    (h3 : S64x1x510x510.ShapeCasts S64x510x510) (n : Fin 64) (x y : Fin 510) :
    shapeCast S64x510x510 (extractStridedSlice S64x1x510x510 ![0, ch, 0, 0]
      (extractStridedSlice S64x2x510x510 ![0, 0, a, b] X h1) h2) h3 (ix3 n x y)
      = fld X n ⟨ch, hch⟩ (nb a x ha) (nb b y hb) := by
  rw [shapeCast_apply _ h3 (ix3 n x y) (ix4 n (0 : Fin 1) x y) (by
    rw [Shape.rowMajor_val_four, Shape.rowMajor_val_three]
    show ((n.val * 1 + 0) * 510 + x.val) * 510 + y.val = (n.val * 510 + x.val) * 510 + y.val
    omega)]
  rw [extractStridedSlice_apply _ _ h2 _ (ix4 n (⟨ch, hch⟩ : Fin 2) x y) (fun d => by
    match d with
    | ⟨0, _⟩ => exact (Nat.zero_add _).symm
    | ⟨1, _⟩ => rfl
    | ⟨2, _⟩ => exact (Nat.zero_add _).symm
    | ⟨3, _⟩ => exact (Nat.zero_add _).symm)]
  rw [extractStridedSlice_apply _ _ h1 _ (ix4 n (⟨ch, hch⟩ : Fin 2) (nb a x ha) (nb b y hb)) (fun d => by
    match d with
    | ⟨0, _⟩ => exact (Nat.zero_add _).symm
    | ⟨1, _⟩ => exact (Nat.zero_add _).symm
    | ⟨2, _⟩ => rfl
    | ⟨3, _⟩ => rfl)]
  rfl

variable (V0 : Valuation τ sig (Elt Ideal))

/-- The prediction and the truth, as the reference's run finds them. -/
abbrev argP : Arr := V0 (Proc.devRef .tc main_arg0)
abbrev argT : Arr := V0 (Proc.devRef .tc main_arg1)

/-! The ten slabs of the truth (centre, left, right, bottom, top of u and v) and of the prediction. -/

theorem v6_apply (n : Fin 64) (x y : Fin 510) : res_main_v6 V0 (ix3 n x y) = fld (argT V0) n 0 (nb 1 x) (nb 1 y) :=
  shifted_apply (argT V0) 1 1 0 (by decide) (by decide) (by decide) _ _ _ n x y
theorem v8_apply (n : Fin 64) (x y : Fin 510) : res_main_v8 V0 (ix3 n x y) = fld (argT V0) n 1 (nb 1 x) (nb 1 y) :=
  shifted_apply (argT V0) 1 1 1 (by decide) (by decide) (by decide) _ _ _ n x y
theorem v10_apply (n : Fin 64) (x y : Fin 510) : res_main_v10 V0 (ix3 n x y) = fld (argT V0) n 0 (nb 0 x) (nb 1 y) :=
  shifted_apply (argT V0) 0 1 0 (by decide) (by decide) (by decide) _ _ _ n x y
theorem v12_apply (n : Fin 64) (x y : Fin 510) : res_main_v12 V0 (ix3 n x y) = fld (argT V0) n 1 (nb 0 x) (nb 1 y) :=
  shifted_apply (argT V0) 0 1 1 (by decide) (by decide) (by decide) _ _ _ n x y
theorem v14_apply (n : Fin 64) (x y : Fin 510) : res_main_v14 V0 (ix3 n x y) = fld (argT V0) n 0 (nb 2 x) (nb 1 y) :=
  shifted_apply (argT V0) 2 1 0 (by decide) (by decide) (by decide) _ _ _ n x y
theorem v16_apply (n : Fin 64) (x y : Fin 510) : res_main_v16 V0 (ix3 n x y) = fld (argT V0) n 1 (nb 2 x) (nb 1 y) :=
  shifted_apply (argT V0) 2 1 1 (by decide) (by decide) (by decide) _ _ _ n x y
theorem v18_apply (n : Fin 64) (x y : Fin 510) : res_main_v18 V0 (ix3 n x y) = fld (argT V0) n 0 (nb 1 x) (nb 0 y) :=
  shifted_apply (argT V0) 1 0 0 (by decide) (by decide) (by decide) _ _ _ n x y
theorem v20_apply (n : Fin 64) (x y : Fin 510) : res_main_v20 V0 (ix3 n x y) = fld (argT V0) n 1 (nb 1 x) (nb 0 y) :=
  shifted_apply (argT V0) 1 0 1 (by decide) (by decide) (by decide) _ _ _ n x y
theorem v22_apply (n : Fin 64) (x y : Fin 510) : res_main_v22 V0 (ix3 n x y) = fld (argT V0) n 0 (nb 1 x) (nb 2 y) :=
  shifted_apply (argT V0) 1 2 0 (by decide) (by decide) (by decide) _ _ _ n x y
theorem v24_apply (n : Fin 64) (x y : Fin 510) : res_main_v24 V0 (ix3 n x y) = fld (argT V0) n 1 (nb 1 x) (nb 2 y) :=
  shifted_apply (argT V0) 1 2 1 (by decide) (by decide) (by decide) _ _ _ n x y

theorem v102_apply (n : Fin 64) (x y : Fin 510) : res_main_v102 V0 (ix3 n x y) = fld (argP V0) n 0 (nb 1 x) (nb 1 y) :=
  shifted_apply (argP V0) 1 1 0 (by decide) (by decide) (by decide) _ _ _ n x y
theorem v104_apply (n : Fin 64) (x y : Fin 510) : res_main_v104 V0 (ix3 n x y) = fld (argP V0) n 1 (nb 1 x) (nb 1 y) :=
  shifted_apply (argP V0) 1 1 1 (by decide) (by decide) (by decide) _ _ _ n x y
theorem v106_apply (n : Fin 64) (x y : Fin 510) : res_main_v106 V0 (ix3 n x y) = fld (argP V0) n 0 (nb 0 x) (nb 1 y) :=
  shifted_apply (argP V0) 0 1 0 (by decide) (by decide) (by decide) _ _ _ n x y
theorem v108_apply (n : Fin 64) (x y : Fin 510) : res_main_v108 V0 (ix3 n x y) = fld (argP V0) n 1 (nb 0 x) (nb 1 y) :=
  shifted_apply (argP V0) 0 1 1 (by decide) (by decide) (by decide) _ _ _ n x y
theorem v110_apply (n : Fin 64) (x y : Fin 510) : res_main_v110 V0 (ix3 n x y) = fld (argP V0) n 0 (nb 2 x) (nb 1 y) :=
  shifted_apply (argP V0) 2 1 0 (by decide) (by decide) (by decide) _ _ _ n x y
theorem v112_apply (n : Fin 64) (x y : Fin 510) : res_main_v112 V0 (ix3 n x y) = fld (argP V0) n 1 (nb 2 x) (nb 1 y) :=
  shifted_apply (argP V0) 2 1 1 (by decide) (by decide) (by decide) _ _ _ n x y
theorem v114_apply (n : Fin 64) (x y : Fin 510) : res_main_v114 V0 (ix3 n x y) = fld (argP V0) n 0 (nb 1 x) (nb 0 y) :=
  shifted_apply (argP V0) 1 0 0 (by decide) (by decide) (by decide) _ _ _ n x y
theorem v116_apply (n : Fin 64) (x y : Fin 510) : res_main_v116 V0 (ix3 n x y) = fld (argP V0) n 1 (nb 1 x) (nb 0 y) :=
  shifted_apply (argP V0) 1 0 1 (by decide) (by decide) (by decide) _ _ _ n x y
theorem v118_apply (n : Fin 64) (x y : Fin 510) : res_main_v118 V0 (ix3 n x y) = fld (argP V0) n 0 (nb 1 x) (nb 2 y) :=
  shifted_apply (argP V0) 1 2 0 (by decide) (by decide) (by decide) _ _ _ n x y
theorem v120_apply (n : Fin 64) (x y : Fin 510) : res_main_v120 V0 (ix3 n x y) = fld (argP V0) n 1 (nb 1 x) (nb 2 y) :=
  shifted_apply (argP V0) 1 2 1 (by decide) (by decide) (by decide) _ _ _ n x y

end Cert.ReferenceIdeal.RefValue

end
-- ==== Proof.RefValue.lean ====
/-
  The reference's three reduced arrays at a cell are the specification's cell functions (the Laplacian in the
  reference's own spelling), its three reductions are the sums over the samples of the per-sample sums, and its
  result is their weighted combination.
-/
import proofs.«162951_j53257594470622_2_alg».proof.Proof.RefSlabs

set_option maxRecDepth 16384

noncomputable section

open scoped BigOperators

namespace Cert.ReferenceIdeal.RefValue

open Cert.ReferenceIdeal Cert.ReferenceIdeal.Gen Cert.ReferenceIdeal.Value
open Idealize.ShloMosaic Idealize.ShloMosaic.ValueIdx Idealize.ShloMosaic.StableHlo Cert.Stencil

variable (V0 : Valuation τ sig (Elt Ideal))

theorem habs_apply {s : Shape} (f : FVec Ideal s .f32) (i : s.Idx) : Host.absf f i = eabs (f i) := rfl

theorem splat_apply (b : BitVec 32) (h : S_.BroadcastsInDim S64x510x510 (![] : Fin 0 → Fin S64x510x510.rank))
    (i : S64x510x510.Idx) :
    broadcastInDim S64x510x510 ![] h (constant (F := Ideal) S_ .f32 b) i = Ideal.ofBits .f32 b := rfl

/-- |mass_T − mass_P| at a cell. -/
theorem mass_apply (n : Fin 64) (x y : Fin 510) :
    Host.absf (subf (addf (res_main_v27 V0) (res_main_v30 V0)) (addf (res_main_v123 V0) (res_main_v126 V0))) (ix3 n x y)
      = cellMass (fld (argP V0) n 0) (fld (argP V0) n 1) (fld (argT V0) n 0) (fld (argT V0) n 1) x y := by
  simp only [habs_apply, subf_apply, addf_apply, mulf_apply, splat_apply, res_main_v27, res_main_v30, res_main_v123,
    res_main_v126, v10_apply, v14_apply, v20_apply, v24_apply, v106_apply, v110_apply, v116_apply, v120_apply]
  rfl

/-- |mom_u,T − mom_u,P| + |mom_v,T − mom_v,P| at a cell, the Laplacian as the sum of the two second differences. -/
theorem mom_apply (n : Fin 64) (x y : Fin 510) :
    (addf (Host.absf (subf (subf (addf (mulf (broadcastInDim S64x510x510 ![] bcast_S_S64x510x510 (constant (F := Ideal) S_ .f32 0x3E800000#32)) (subf (mulf (res_main_v37 V0) (res_main_v37 V0)) (mulf (res_main_v39 V0) (res_main_v39 V0)))) (mulf (broadcastInDim S64x510x510 ![] bcast_S_S64x510x510 (constant (F := Ideal) S_ .f32 0x3E800000#32)) (subf (mulf (addf (res_main_v22 V0) (res_main_v6 V0)) (addf (res_main_v24 V0) (res_main_v8 V0))) (mulf (addf (res_main_v18 V0) (res_main_v6 V0)) (addf (res_main_v20 V0) (res_main_v8 V0)))))) (mulf (addf (addf (subf (res_main_v14 V0) (mulf (res_main_v6 V0) (broadcastInDim S64x510x510 ![] bcast_S_S64x510x510 (constant (F := Ideal) S_ .f32 0x40000000#32)))) (res_main_v10 V0)) (addf (subf (res_main_v22 V0) (mulf (res_main_v6 V0) (broadcastInDim S64x510x510 ![] bcast_S_S64x510x510 (constant (F := Ideal) S_ .f32 0x40000000#32)))) (res_main_v18 V0))) (broadcastInDim S64x510x510 ![] bcast_S_S64x510x510 (constant (F := Ideal) S_ .f32 0x3B23D70A#32)))) (subf (addf (mulf (broadcastInDim S64x510x510 ![] bcast_S_S64x510x510 (constant (F := Ideal) S_ .f32 0x3E800000#32)) (subf (mulf (res_main_v133 V0) (res_main_v133 V0)) (mulf (res_main_v135 V0) (res_main_v135 V0)))) (mulf (broadcastInDim S64x510x510 ![] bcast_S_S64x510x510 (constant (F := Ideal) S_ .f32 0x3E800000#32)) (subf (mulf (addf (res_main_v118 V0) (res_main_v102 V0)) (addf (res_main_v120 V0) (res_main_v104 V0))) (mulf (addf (res_main_v114 V0) (res_main_v102 V0)) (addf (res_main_v116 V0) (res_main_v104 V0)))))) (mulf (addf (addf (subf (res_main_v110 V0) (mulf (res_main_v102 V0) (broadcastInDim S64x510x510 ![] bcast_S_S64x510x510 (constant (F := Ideal) S_ .f32 0x40000000#32)))) (res_main_v106 V0)) (addf (subf (res_main_v118 V0) (mulf (res_main_v102 V0) (broadcastInDim S64x510x510 ![] bcast_S_S64x510x510 (constant (F := Ideal) S_ .f32 0x40000000#32)))) (res_main_v114 V0))) (broadcastInDim S64x510x510 ![] bcast_S_S64x510x510 (constant (F := Ideal) S_ .f32 0x3B23D70A#32)))))) (Host.absf (subf (subf (addf (mulf (broadcastInDim S64x510x510 ![] bcast_S_S64x510x510 (constant (F := Ideal) S_ .f32 0x3E800000#32)) (subf (mulf (addf (res_main_v16 V0) (res_main_v8 V0)) (addf (res_main_v14 V0) (res_main_v6 V0))) (mulf (addf (res_main_v12 V0) (res_main_v8 V0)) (addf (res_main_v10 V0) (res_main_v6 V0))))) (mulf (broadcastInDim S64x510x510 ![] bcast_S_S64x510x510 (constant (F := Ideal) S_ .f32 0x3E800000#32)) (subf (mulf (res_main_v53 V0) (res_main_v53 V0)) (mulf (res_main_v55 V0) (res_main_v55 V0))))) (mulf (addf (addf (subf (res_main_v16 V0) (mulf (res_main_v8 V0) (broadcastInDim S64x510x510 ![] bcast_S_S64x510x510 (constant (F := Ideal) S_ .f32 0x40000000#32)))) (res_main_v12 V0)) (addf (subf (res_main_v24 V0) (mulf (res_main_v8 V0) (broadcastInDim S64x510x510 ![] bcast_S_S64x510x510 (constant (F := Ideal) S_ .f32 0x40000000#32)))) (res_main_v20 V0))) (broadcastInDim S64x510x510 ![] bcast_S_S64x510x510 (constant (F := Ideal) S_ .f32 0x3B23D70A#32)))) (subf (addf (mulf (broadcastInDim S64x510x510 ![] bcast_S_S64x510x510 (constant (F := Ideal) S_ .f32 0x3E800000#32)) (subf (mulf (addf (res_main_v112 V0) (res_main_v104 V0)) (addf (res_main_v110 V0) (res_main_v102 V0))) (mulf (addf (res_main_v108 V0) (res_main_v104 V0)) (addf (res_main_v106 V0) (res_main_v102 V0))))) (mulf (broadcastInDim S64x510x510 ![] bcast_S_S64x510x510 (constant (F := Ideal) S_ .f32 0x3E800000#32)) (subf (mulf (res_main_v149 V0) (res_main_v149 V0)) (mulf (res_main_v151 V0) (res_main_v151 V0))))) (mulf (addf (addf (subf (res_main_v112 V0) (mulf (res_main_v104 V0) (broadcastInDim S64x510x510 ![] bcast_S_S64x510x510 (constant (F := Ideal) S_ .f32 0x40000000#32)))) (res_main_v108 V0)) (addf (subf (res_main_v120 V0) (mulf (res_main_v104 V0) (broadcastInDim S64x510x510 ![] bcast_S_S64x510x510 (constant (F := Ideal) S_ .f32 0x40000000#32)))) (res_main_v116 V0))) (broadcastInDim S64x510x510 ![] bcast_S_S64x510x510 (constant (F := Ideal) S_ .f32 0x3B23D70A#32))))))) (ix3 n x y)
      = cellMomR (fld (argP V0) n 0) (fld (argP V0) n 1) (fld (argT V0) n 0) (fld (argT V0) n 1) x y := by
  simp only [habs_apply, subf_apply, addf_apply, mulf_apply, splat_apply, res_main_v37, res_main_v39, res_main_v53,
    res_main_v55, res_main_v133, res_main_v135, res_main_v149, res_main_v151,
    v6_apply, v8_apply, v10_apply, v12_apply, v14_apply, v16_apply, v18_apply, v20_apply, v22_apply, v24_apply,
    v102_apply, v104_apply, v106_apply, v108_apply, v110_apply, v112_apply, v114_apply, v116_apply, v118_apply,
    v120_apply]
  rfl

/-- |P − T| at an entry. -/
theorem l1_apply (n : Fin 64) (ch : Fin 2) (p q : Fin 512) :
    Host.absf (F := Ideal) (φ := .f32) (subf (F := Ideal) (φ := .f32) (argP V0) (argT V0)) (ix4 n ch p q) = eabs (fld (argP V0) n ch p q - fld (argT V0) n ch p q) := rfl

/-- A total sum over the cells of all samples, from its values at the cells. -/
theorem total3 (X : S64x510x510.Idx → EReal) (f : Fin 64 → Fin 510 → Fin 510 → EReal)
    (hX : ∀ n x y, X (ix3 n x y) = f n x y) (init : EReal) (h' : S64x510x510.ReducesTo [0, 1, 2] S_) :
    Ideal.hostReduceAdd h' X init ix0 = init + ∑ n : Fin 64, ∑ x : Fin 510, ∑ y : Fin 510, f n x y := by
  rw [Ideal.hostReduceAdd_total h' (fun b => b.elim0), sum_idx3]
  simp only [hX]

/-- A total sum over all entries, from its values at the entries. -/
theorem total4 (X : S64x2x512x512.Idx → EReal) (f : Fin 64 → Fin 2 → Fin 512 → Fin 512 → EReal)
    (hX : ∀ n ch p q, X (ix4 n ch p q) = f n ch p q) (init : EReal) (h' : S64x2x512x512.ReducesTo [0, 1, 2, 3] S_) :
    Ideal.hostReduceAdd h' X init ix0
      = init + ∑ n : Fin 64, ∑ ch : Fin 2, ∑ p : Fin 512, ∑ q : Fin 512, f n ch p q := by
  rw [Ideal.hostReduceAdd_total h' (fun b => b.elim0), sum_idx4]
  simp only [hX]

/-- The reference's result: the weighted combination of the three totals over the samples. -/
theorem ref_value :
    (Host.divf (addf (res_main_v223 V0) (Host.divf (Host.reduceAdd (Host.absf (subf (argP V0) (argT V0)))
      (constant (F := Ideal) S_ .f32 0x00000000#32) reducesTo_S64x2x512x512_S_d0_1_2_3 h_S_) (constant (F := Ideal) S_ .f32 0x4C000000#32)))
      (constant (F := Ideal) S_ .f32 0x40400000#32)) ix0
      = combine (z0 + ∑ n : Fin 64, sampleMass (argP V0) (argT V0) n) (z0 + ∑ n : Fin 64, sampleMomR (argP V0) (argT V0) n)
          (z0 + ∑ n : Fin 64, sampleL1 (argP V0) (argT V0) n) := by
  unfold res_main_v223 combine
  show Ideal.div ((Ideal.div (Ideal.hostReduceAdd _ _ _ ix0) _ * _ + Ideal.div (Ideal.hostReduceAdd _ _ _ ix0) _ * _)
    + Ideal.div (Ideal.hostReduceAdd _ _ _ ix0) _) _ = _
  rw [total3 _ _ (mass_apply V0), total3 _ _ (mom_apply V0), total4 _ _ (l1_apply V0)]
  unfold sampleMass sampleMomR sampleL1 cells l1
  simp only [Fin.sum_univ_two]
  rfl

end Cert.ReferenceIdeal.RefValue

end
-- ==== Proof.lean ====
/-
  A physics-informed loss on pairs of 2-D velocity fields, computed by a two-core grid kernel and by a whole-array
  reference, is the same extended real on finite inputs.

  Both programs form, for each of 64 samples and each interior cell of a 512 × 512 lattice, the five-point-stencil
  residuals of mass and of the two momentum components for the prediction and for the truth, sum the absolute
  differences, sum |prediction − truth| over all entries, and return (5·a/N₁ + 25·b/N₁ + l/N₂)/3 of the three totals.

  They differ in two ways. The reference reduces each whole array at once, while the kernel walks the samples in two
  runs of 32, keeping three running sums per run and adding the two runs' sums at the end: sums over the extended
  reals commute and associate, and the stored zero is 0, so the totals agree. And the Laplacian in the momentum
  residuals is ν·((((r + l) + t) + b) − 4m) in the kernel but (((r − 2m) + l) + ((t − 2m) + b))·ν in the reference:
  these agree where the values are real numbers, which is what the precondition provides.

  The three frame claims are the generated frame runs; the idealization rewrote nothing.
-/
import proofs.«162951_j53257594470622_2_alg».proof.Defs
import proofs.«162951_j53257594470622_2_alg».proof.Proof.Gen.Kernel
import proofs.«162951_j53257594470622_2_alg».proof.Proof.Gen.Kernel.Skeleton
import proofs.«162951_j53257594470622_2_alg».proof.Proof.Gen.Kernel.Launch
import proofs.«162951_j53257594470622_2_alg».proof.Proof.Gen.Kernel.Points
import proofs.«162951_j53257594470622_2_alg».proof.Proof.Gen.Kernel.Frame
import proofs.«162951_j53257594470622_2_alg».proof.Proof.Gen.KernelIdeal
import proofs.«162951_j53257594470622_2_alg».proof.Proof.Gen.KernelIdeal.Skeleton
import proofs.«162951_j53257594470622_2_alg».proof.Proof.Gen.KernelIdeal.Launch
import proofs.«162951_j53257594470622_2_alg».proof.Proof.Gen.KernelIdeal.Points
import proofs.«162951_j53257594470622_2_alg».proof.Proof.Gen.KernelIdeal.Frame
import proofs.«162951_j53257594470622_2_alg».proof.Proof.Gen.ReferenceIdeal
import proofs.«162951_j53257594470622_2_alg».proof.Proof.Gen.ReferenceIdeal.Run
import proofs.«162951_j53257594470622_2_alg».proof.Proof.Gen.Pre_finite_inputs
import proofs.«162951_j53257594470622_2_alg».proof.Proof.Finite
import proofs.«162951_j53257594470622_2_alg».proof.Proof.KLoss
import proofs.«162951_j53257594470622_2_alg».proof.Proof.RefValue
import Idealize.ShloMosaic.Adequacy
import Idealize.ShloMosaic.Init

noncomputable section

namespace Cert.Proof

open Idealize.ShloMosaic Idealize.ShloMosaic.ValueIdx Idealize.SL.Sem Cert.Stencil

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs the kernel's combination of its two runs' sums and the reference's combination of its three
    totals are one extended real: the totals agree sample by sample, the momentum ones by the Laplacian law. -/
theorem algebraic : Cert.algebraic_KernelIdeal_ReferenceIdeal := by
  intro m ρ m' ρ' hpre hagree
  refine ⟨_, Cert.KernelIdeal.KVal.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.KVal.lossOf (F := Ideal) (Cert.KernelIdeal.KVal.tiles m c)
  funext j
  obtain rfl : j = ix0 := eq_ix0 j
  obtain ⟨hPf, hTf⟩ := finite_of_pre _ _ (hpre c)
  refine (Cert.ReferenceIdeal.RefValue.ref_value (StableHlo.launchContents m' c)).trans ?_
  rw [Cert.KernelIdeal.KVal.kernel_loss]
  have eP : Cert.ReferenceIdeal.RefValue.argP (StableHlo.launchContents m' c) = Cert.KernelIdeal.KVal.argP m c :=
    (hagree c).1
  have eT : Cert.ReferenceIdeal.RefValue.argT (StableHlo.launchContents m' c) = Cert.KernelIdeal.KVal.argT m c :=
    (hagree c).2
  rw [eP, eT]
  simp only [sampleMomK_eq_sampleMomR _ _ hPf hTf]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
